-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S2x8388608x3 : Shape := ⟨3, ![2, 8388608, 3]⟩
abbrev S2x3x16x16 : Shape := ⟨4, ![2, 3, 16, 16]⟩
abbrev S1x8192x3 : Shape := ⟨3, ![1, 8192, 3]⟩
abbrev S1x3x16x16 : Shape := ⟨4, ![1, 3, 16, 16]⟩
abbrev S3x16x16 : Shape := ⟨3, ![3, 16, 16]⟩
abbrev S1024x16 : Shape := ⟨2, ![1024, 16]⟩
abbrev S1x1024x3 : Shape := ⟨3, ![1, 1024, 3]⟩
abbrev S1024x3 : Shape := ⟨2, ![1024, 3]⟩
abbrev S1024x1 : Shape := ⟨2, ![1024, 1]⟩
abbrev S16x16 : Shape := ⟨2, ![16, 16]⟩
abbrev S1x1x16x16 : Shape := ⟨4, ![1, 1, 16, 16]⟩
abbrev S_ : Shape := ⟨0, ![]⟩
abbrev S3x256 : Shape := ⟨2, ![3, 256]⟩
abbrev S256x3 : Shape := ⟨2, ![256, 3]⟩
abbrev S3 : Shape := ⟨1, ![3]⟩
abbrev S1x3 : Shape := ⟨2, ![1, 3]⟩

abbrev nBuf : Space → Nat
  | .hbm => 20
  | .vmem => 4
  | .smem => 0
  | _ => 0

abbrev bufTy : (tb : Table) → Fin (tcTables nBuf tb) → BufTy
  | .hbm, ⟨0, _⟩ => ⟨S64x512x512x3, .f32⟩
  | .hbm, ⟨1, _⟩ => ⟨S2x8388608x3, .f32⟩
  | .hbm, ⟨2, _⟩ => ⟨S2x3x16x16, .f32⟩
  | .hbm, ⟨3, _⟩ => ⟨S_, .f32⟩
  | .hbm, ⟨4, _⟩ => ⟨S3x16x16, .f32⟩
  | .hbm, ⟨5, _⟩ => ⟨S3x256, .f32⟩
  | .hbm, ⟨6, _⟩ => ⟨S256x3, .f32⟩
  | .hbm, ⟨7, _⟩ => ⟨S_, .f32⟩
  | .hbm, ⟨8, _⟩ => ⟨S3, .f32⟩
  | .hbm, ⟨9, _⟩ => ⟨S1x3, .f32⟩
  | .hbm, ⟨10, _⟩ => ⟨S_, .f32⟩
  | .hbm, ⟨11, _⟩ => ⟨S1x3, .f32⟩
  | .hbm, ⟨12, _⟩ => ⟨S1x3, .i1⟩
  | .hbm, ⟨13, _⟩ => ⟨S256x3, .f32⟩
  | .hbm, ⟨14, _⟩ => ⟨S256x3, .f32⟩
  | .hbm, ⟨15, _⟩ => ⟨S_, .f32⟩
  | .hbm, ⟨16, _⟩ => ⟨S_, .f32⟩
  | .hbm, ⟨17, _⟩ => ⟨S256x3, .i1⟩
  | .hbm, ⟨18, _⟩ => ⟨S256x3, .f32⟩
  | .hbm, ⟨19, _⟩ => ⟨S256x3, .f32⟩
  | .local _ .vmem, ⟨0, _⟩ => ⟨S1x8192x3, .f32⟩
  | .local _ .vmem, ⟨1, _⟩ => ⟨S1x8192x3, .f32⟩
  | .local _ .vmem, ⟨2, _⟩ => ⟨S1x3x16x16, .f32⟩
  | .local _ .vmem, ⟨3, _⟩ => ⟨S1x3x16x16, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1024], ![false, false]⟩

@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg4 : BitVec 32 := Scf.iv c0_i32_1 c1_i32 k0_t1
  let c1_i32_3 : BitVec 32 := 1#32
  let v7 : BitVec 32 := Scalar.muli arg4 c1_i32_3
  let v8 : BitVec 32 := Scalar.addi c0_i32_4 v7
  let c1024_i32 : BitVec 32 := 1024#32
  let v9 : BitVec 32 := Scalar.muli v8 c1024_i32
  v9
def k0_off1 (k0_t1 : Fin k0_t1_loop.trips) : Fin 3 → Nat :=
  let c0 : Index := 0#32
  let c0_i32_4 : BitVec 32 := 0#32
  let c0_i32_1 : BitVec 32 := 0#32
  let c1_i32 : BitVec 32 := 1#32
  let arg4 : BitVec 32 := Scf.iv c0_i32_1 c1_i32 k0_t1
  let c1_i32_3 : BitVec 32 := 1#32
  let v7 : BitVec 32 := Scalar.muli arg4 c1_i32_3
  let v8 : BitVec 32 := Scalar.addi c0_i32_4 v7
  let c1024_i32 : BitVec 32 := 1024#32
  let v9 : BitVec 32 := Scalar.muli v8 c1024_i32
  let v10 : BitVec 32 := v9
  let v11 : Index := Scalar.indexCast v10
  let c0_5 : Index := 0#32
  ![0, v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  shapeCasts_S64x512x512x3_S2x8388608x3 : S64x512x512x3.ShapeCasts S2x8388608x3
  inb_S1x3x16x16_S1x3x16x16_0_0_0_0 : ∀ a, (![0, 0, 0, 0] : Fin 4 → Nat) a + S1x3x16x16.size a ≤ S1x3x16x16.size a
  h_S1x3x16x16 : 0 < S1x3x16x16.numel
  shapeCasts_S1x3x16x16_S3x16x16 : S1x3x16x16.ShapeCasts S3x16x16
  shapeCasts_S3x16x16_S1x3x16x16 : S3x16x16.ShapeCasts S1x3x16x16
  iota_S1024x16_d1_w32 : S1024x16.Iotas .tc 32 [1]
  bitsLt_bf16_f32 : FTy.bits .bf16 < FTy.bits .f32
  h_S1x1024x3 : 0 < S1x1024x3.numel
  shapeCasts_S1x1024x3_S1024x3 : S1x1024x3.ShapeCasts S1024x3
  slices_S1024x3_o0_0_S1024x1 : S1024x3.Slices ![0, 0] S1024x1
  broadcasts_S1024x1_S1024x16 : S1024x1.Broadcasts S1024x16
  natLt_1_32 : 1 < 32
  inb_S1x3x16x16_S1x1x16x16_0_0_0_0 : ∀ a, (![0, 0, 0, 0] : Fin 4 → Nat) a + S1x1x16x16.size a ≤ S1x3x16x16.size a
  h_S1x1x16x16 : 0 < S1x1x16x16.numel
  shapeCasts_S1x1x16x16_S16x16 : S1x1x16x16.ShapeCasts S16x16
  shapeCasts_S16x16_S1x1x16x16 : S16x16.ShapeCasts S1x1x16x16
  slices_S1024x3_o0_1_S1024x1 : S1024x3.Slices ![0, 1] S1024x1
  inb_S1x3x16x16_S1x1x16x16_0_1_0_0 : ∀ a, (![0, 1, 0, 0] : Fin 4 → Nat) a + S1x1x16x16.size a ≤ S1x3x16x16.size a
  slices_S1024x3_o0_2_S1024x1 : S1024x3.Slices ![0, 2] S1024x1
  inb_S1x3x16x16_S1x1x16x16_0_2_0_0 : ∀ a, (![0, 2, 0, 0] : Fin 4 → Nat) a + S1x1x16x16.size a ≤ S1x3x16x16.size a
  reducesTo_S2x3x16x16_S3x16x16_d0 : S2x3x16x16.ReducesTo [0] S3x16x16
  h_S_ : 0 < S_.numel
  shapeCasts_S3x16x16_S3x256 : S3x16x16.ShapeCasts S3x256
  transposes_S3x256_S256x3_1_0 : S3x256.Transposes [1, 0] S256x3
  reducesTo_S256x3_S3_d0 : S256x3.ReducesTo [0] S3
  bcast_S3_S1x3_1 : S3.BroadcastsInDim S1x3 (![1] : Fin 1 → Fin S1x3.rank)
  bcast_S_S1x3 : S_.BroadcastsInDim S1x3 (![] : Fin 0 → Fin S1x3.rank)
  bcast_S1x3_S256x3_0_1 : S1x3.BroadcastsInDim S256x3 (![0, 1] : Fin 2 → Fin S256x3.rank)
  bcast_S_S256x3 : S_.BroadcastsInDim S256x3 (![] : Fin 0 → Fin S256x3.rank)
  dot_S1024x16_S1024x16_S16x16_0_0_1_1_n_n_wf : DotDims.WF S1024x16 S1024x16 S16x16 [0] [0] [1] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1x1024x3.size a ≤ S1x8192x3.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S2x8388608x3.size a
  hwx0_0 : ∀ i : grid0.Coords, EltTy.bits .f32 = 32 ∨ (Rect.block (s := S2x8388608x3) S1x8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x16.size a ≤ S2x3x16x16.size a
  hwx0_1 : ∀ i : grid0.Coords, EltTy.bits .f32 = 32 ∨ (Rect.block (s := S2x3x16x16) S1x3x16x16.size (cc0_transform_1 i) (hinb0_1 i)).WholeWords (EltTy.packing .f32)

variable [Facts₀]

def dot_S1024x16_S1024x16_S16x16_0_0_1_1_n_n : DotDims S1024x16 S1024x16 S16x16 where
  lhsContracting := [0]
  rhsContracting := [0]
  lhsNonContracting := [1]
  rhsNonContracting := [1]
  lhsBatch := []
  rhsBatch := []
  wf := dot_S1024x16_S1024x16_S16x16_0_0_1_1_n_n_wf

abbrev win0_0 : Pipeline.Window sig grid0 :=
  Pipeline.Window.ofSpec (Memref.whole main_v0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512x3 : Shape := ⟨4, ![64, 512, 512, 3]⟩
abbrev S16777216x3 : Shape := ⟨2, ![16777216, 3]⟩
abbrev S_ : Shape := ⟨0, ![]⟩
abbrev S3 : Shape := ⟨1, ![3]⟩
abbrev S1x3 : Shape := ⟨2, ![1, 3]⟩
abbrev S50331648 : Shape := ⟨1, ![50331648]⟩
abbrev S768 : Shape := ⟨1, ![768]⟩
abbrev S50331648x1 : Shape := ⟨2, ![50331648, 1]⟩
abbrev S3x256 : Shape := ⟨2, ![3, 256]⟩
abbrev S256x3 : Shape := ⟨2, ![256, 3]⟩

abbrev nBuf : Space → Nat
  | .hbm => 43
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S16777216x3, .f32⟩
  | .hbm, ⟨2, _⟩ => ⟨S_, .f32⟩
  | .hbm, ⟨3, _⟩ => ⟨S16777216x3, .f32⟩
  | .hbm, ⟨4, _⟩ => ⟨S16777216x3, .f32⟩
  | .hbm, ⟨5, _⟩ => ⟨S16777216x3, .f32⟩
  | .hbm, ⟨6, _⟩ => ⟨S16777216x3, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S16777216x3, .i32⟩
  | .hbm, ⟨11, _⟩ => ⟨S16777216x3, .i32⟩
  | .hbm, ⟨12, _⟩ => ⟨S_, .i32⟩
  | .hbm, ⟨13, _⟩ => ⟨S16777216x3, .i32⟩
  | .hbm, ⟨14, _⟩ => ⟨S16777216x3, .i32⟩
  | .hbm, ⟨15, _⟩ => ⟨S3, .i32⟩
  | .hbm, ⟨16, _⟩ => ⟨S1x3, .i32⟩
  | .hbm, ⟨17, _⟩ => ⟨S_, .i32⟩
  | .hbm, ⟨18, _⟩ => ⟨S1x3, .i32⟩
  | .hbm, ⟨19, _⟩ => ⟨S1x3, .i32⟩
  | .hbm, ⟨20, _⟩ => ⟨S16777216x3, .i32⟩
  | .hbm, ⟨21, _⟩ => ⟨S16777216x3, .i32⟩
  | .hbm, ⟨22, _⟩ => ⟨S50331648, .i32⟩
  | .hbm, ⟨23, _⟩ => ⟨S_, .f32⟩
  | .hbm, ⟨24, _⟩ => ⟨S768, .f32⟩
  | .hbm, ⟨25, _⟩ => ⟨S_, .i32⟩
  | .hbm, ⟨26, _⟩ => ⟨S50331648, .i32⟩
  | .hbm, ⟨27, _⟩ => ⟨S50331648, .i1⟩
  | .hbm, ⟨28, _⟩ => ⟨S_, .i32⟩
  | .hbm, ⟨29, _⟩ => ⟨S50331648, .i32⟩
  | .hbm, ⟨30, _⟩ => ⟨S50331648, .i32⟩
  | .hbm, ⟨31, _⟩ => ⟨S50331648, .i32⟩
  | .hbm, ⟨32, _⟩ => ⟨S50331648x1, .i32⟩
  | .hbm, ⟨33, _⟩ => ⟨S_, .f32⟩
  | .hbm, ⟨34, _⟩ => ⟨S50331648, .f32⟩
  | .hbm, ⟨35, _⟩ => ⟨S768, .f32⟩
  | .hbm, ⟨36, _⟩ => ⟨S3x256, .f32⟩
  | .hbm, ⟨37, _⟩ => ⟨S256x3, .f32⟩
  | .hbm, ⟨38, _⟩ => ⟨S_, .f32⟩
  | .hbm, ⟨39, _⟩ => ⟨S3, .f32⟩
  | .hbm, ⟨40, _⟩ => ⟨S1x3, .f32⟩
  | .hbm, ⟨41, _⟩ => ⟨S256x3, .f32⟩
  | .hbm, ⟨42, _⟩ => ⟨S256x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  shapeCasts_S64x512x512x3_S16777216x3 : S64x512x512x3.ShapeCasts S16777216x3
  bcast_S_S16777216x3 : S_.BroadcastsInDim S16777216x3 (![] : Fin 0 → Fin S16777216x3.rank)
  bcast_S3_S1x3_1 : S3.BroadcastsInDim S1x3 (![1] : Fin 1 → Fin S1x3.rank)
  bcast_S_S1x3 : S_.BroadcastsInDim S1x3 (![] : Fin 0 → Fin S1x3.rank)
  bcast_S1x3_S16777216x3_0_1 : S1x3.BroadcastsInDim S16777216x3 (![0, 1] : Fin 2 → Fin S16777216x3.rank)
  shapeCasts_S16777216x3_S50331648 : S16777216x3.ShapeCasts S50331648
  bcast_S_S768 : S_.BroadcastsInDim S768 (![] : Fin 0 → Fin S768.rank)
  bcast_S_S50331648 : S_.BroadcastsInDim S50331648 (![] : Fin 0 → Fin S50331648.rank)
  bcast_S50331648_S50331648x1_0 : S50331648.BroadcastsInDim S50331648x1 (![0] : Fin 1 → Fin S50331648x1.rank)
  shapeCasts_S768_S3x256 : S768.ShapeCasts S3x256
  transposes_S3x256_S256x3_1_0 : S3x256.Transposes [1, 0] S256x3
  reducesTo_S256x3_S3_d0 : S256x3.ReducesTo [0] S3
  h_S_ : 0 < S_.numel
  bcast_S1x3_S256x3_0_1 : S1x3.BroadcastsInDim S256x3 (![0, 1] : Fin 2 → Fin S256x3.rank)
  scatter_S768_S50331648x1_S50331648_n_0_0_1_wf : ScatterDims.WF S768 S50331648x1 S50331648 [] [0] [0] 1

variable [Facts₀]

def scatter_S768_S50331648x1_S50331648_n_0_0_1 : ScatterDims S768 S50331648x1 S50331648 where
  updateWindowDims := []
  insertedWindowDims := [0]
  scatterDimsToOperandDims := [0]
  indexVectorDim := 1
  wf := scatter_S768_S50331648x1_S50331648_n_0_0_1_wf

class Facts : Prop extends Facts₀ where

variable [Facts]
-- ==== Proof.HistSpec.lean ====
/-
  The normalised histogram, as one function of the input array.

  The input is read as 16777216 rows of 3 channels (row-major).  Every entry x is sent to its bin
  word: floor(256 · x), converted to a signed 32-bit word and clamped to [0, 255].  For a channel,
  count b is the number of rows whose entry lands in bin b, total is the sum of the 256 counts, and
  the result at (b, channel) is count / total.

  Two ways of counting are named as well: an entry is recognised either by its bin, or by the pair
  (bin / 16, bin % 16) of its two 4-bit halves; a block of 8192 rows adds, for each pair of halves,
  the number of its rows with those halves, taken as 8 chunks of 1024 rows.
-/
import Idealize.ShloMosaic.PureOps.Ideal
import Idealize.ShloMosaic.Lib.ValueIdx

noncomputable section

open scoped BigOperators

namespace Cert.Hist

open Idealize.ShloMosaic Idealize.ShloMosaic.ValueIdx

/-- The bin word of one entry: floor(256 · x) as a signed 32-bit word, clamped to [0, 255]. -/
def binWord (x : EReal) : BitVec 32 :=
  IntOp.minsi 255#32 (IntOp.maxsi 0#32
    (FloatOps.fptosi (F := Ideal) (φ := .f32) 32
      (FloatOps.floor (F := Ideal) (φ := .f32)
        (FloatOps.mulf (F := Ideal) (φ := .f32) x (FloatOps.ofBits (F := Ideal) .f32 0x43800000#32)))))

/-- The bin of one entry, a number below 256. -/
def bin (x : EReal) : ℕ := (binWord x).toNat

/-- 1 when the entry lands in bin b, else 0. -/
def hit (x : EReal) (b : ℕ) : EReal := if bin x = b then 1 else 0

/-- 1 when the upper half of the entry's bin is a, else 0. -/
def hiHit (x : EReal) (a : ℕ) : EReal := if bin x / 16 = a then 1 else 0

/-- 1 when the lower half of the entry's bin is b, else 0. -/
def loHit (x : EReal) (b : ℕ) : EReal := if bin x % 16 = b then 1 else 0

/-- The number of rows of channel ch whose entry lands in bin b. -/
def count (X : Fin 16777216 → Fin 3 → EReal) (b : Fin 256) (ch : Fin 3) : EReal :=
  ∑ n : Fin 16777216, hit (X n ch) b.val

/-- The sum of a channel's 256 counts. -/
def total (X : Fin 16777216 → Fin 3 → EReal) (ch : Fin 3) : EReal :=
  ∑ b : Fin 256, count X b ch

/-- The normalised histogram: count / total, at (bin, channel). -/
def G (X : Fin 16777216 → Fin 3 → EReal) : (⟨2, ![256, 3]⟩ : Shape).Idx → EReal :=
  fun i => Ideal.div (count X (i 0) (i 1)) (total X (i 1))

/-- Entry (n, ch) of the input read as rows: its row-major position is 3 · n + ch. -/
def rowIdx (n : Fin 16777216) (ch : Fin 3) : (⟨4, ![64, 512, 512, 3]⟩ : Shape).Idx := fun a => match a with
  | ⟨0, _⟩ => ⟨(n.val * 3 + ch.val) / 786432, by have h0 := n.isLt; have h1 := ch.isLt; show (n.val * 3 + ch.val) / 786432 < 64; omega⟩
  | ⟨1, _⟩ => ⟨(n.val * 3 + ch.val) / 1536 % 512, by show (n.val * 3 + ch.val) / 1536 % 512 < 512; omega⟩
  | ⟨2, _⟩ => ⟨(n.val * 3 + ch.val) / 3 % 512, by show (n.val * 3 + ch.val) / 3 % 512 < 512; omega⟩
  | ⟨3, _⟩ => ⟨(n.val * 3 + ch.val) % 3, by show (n.val * 3 + ch.val) % 3 < 3; omega⟩

/-- The input array read as rows. -/
def rows (A : (⟨4, ![64, 512, 512, 3]⟩ : Shape).Idx → EReal) : Fin 16777216 → Fin 3 → EReal :=
  fun n ch => A (rowIdx n ch)

/-- What one block of 8192 rows adds to the pair of halves (a, b) of channel ch: its rows with those
    halves, taken as 8 chunks of 1024 rows. -/
def blockHits (x0 : (⟨3, ![1, 8192, 3]⟩ : Shape).Idx → EReal) (ch : Fin 3) (a b : Fin 16) : EReal :=
  ∑ k : Fin 8, ∑ r : Fin 1024,
    hiHit (x0 (ix3 (0 : Fin 1) (⟨1024 * k.val + r.val, by have := k.isLt; have := r.isLt; omega⟩ : Fin 8192) ch)) a.val
      * loHit (x0 (ix3 (0 : Fin 1) (⟨1024 * k.val + r.val, by have := k.isLt; have := r.isLt; omega⟩ : Fin 8192) ch)) b.val

end Cert.Hist

end
-- ==== Proof.HistCount.lean ====
/-
  Counting facts about the normalised histogram.

  The bin of an entry is below 256 and its word is non-negative; an entry has halves (a, b) exactly
  when its bin is 16 · a + b; the rows of the input, taken as 2 shards of 1024 blocks of 8192 rows,
  are all the rows, so the blocks' pair counts add up to the count of bin 16 · a + b; the 50331648
  flat positions j = 3 · n + ch, each sent to the target 256 · ch + bin, hit target 256 · ch + b
  exactly count-many times; and a channel's total is positive, since row 0 lands in some bin.
-/
import proofs.«110198_j74637941669897_2_alg».proof.Proof.HistSpec

noncomputable section

open scoped BigOperators

namespace Cert.Hist

open Idealize.ShloMosaic Idealize.ShloMosaic.ValueIdx

/-- Clamping a signed 32-bit word to [0, 255]: the result, read unsigned, is below 256, and reading
    it signed gives the same number. -/
theorem clamp_word (w : BitVec 32) :
    (IntOp.minsi 255#32 (IntOp.maxsi 0#32 w)).toNat < 256 ∧
      (IntOp.minsi 255#32 (IntOp.maxsi 0#32 w)).toInt
        = ((IntOp.minsi 255#32 (IntOp.maxsi 0#32 w)).toNat : ℤ) := by
  unfold IntOp.minsi IntOp.maxsi
  by_cases h1 : w.slt 0#32 = true
  · rw [if_pos h1]
    have h0 : (255#32).slt 0#32 = false := by decide
    rw [h0]
    decide
  · rw [if_neg h1]
    by_cases h2 : (255#32).slt w = true
    · rw [if_pos h2]
      decide
    · rw [if_neg h2]
      have hw := w.isLt
      have h1' : ¬ w.toInt < 0 := by simpa [BitVec.slt] using h1
      have h2' : ¬ 255 < w.toInt := by simpa [BitVec.slt] using h2
      rw [BitVec.toInt_eq_toNat_cond] at h1' h2' ⊢
      by_cases h3 : 2 * w.toNat < 2 ^ 32
      · rw [if_pos h3] at h1' h2' ⊢
        constructor
        · omega
        · rfl
      · rw [if_neg h3] at h1' h2' ⊢
        exfalso
        omega

/-- A position a · B + b with a < A and b < B is below A · B. -/
theorem mul_add_lt {A B a b : ℕ} (ha : a < A) (hb : b < B) : a * B + b < A * B := by
  calc a * B + b < a * B + B := by omega
    _ = (a + 1) * B := by ring
    _ ≤ A * B := Nat.mul_le_mul_right _ ha

/-- A sum over N = A · B positions, taken as A groups of B: position a · B + b is the b-th of group a. -/
theorem sum_fin_split {M : Type*} [AddCommMonoid M] (N A B : ℕ) (h : N = A * B) (g : Fin N → M) :
    ∑ n : Fin N, g n
      = ∑ a : Fin A, ∑ b : Fin B, g ⟨a.val * B + b.val, h ▸ mul_add_lt a.isLt b.isLt⟩ := by
  subst h
  rw [← Fintype.sum_prod_type', ← (Fintype.sum_equiv finProdFinEquiv _ _ (fun _ => rfl))]
  apply Finset.sum_congr rfl
  intro p _
  congr 1
  apply Fin.ext
  simp [finProdFinEquiv]
  ring

/-- The 16777216 rows, taken as 2 shards of 1024 blocks of 8 chunks of 1024 rows. -/
theorem sum_rows_split (f : Fin 16777216 → EReal) :
    ∑ n : Fin 16777216, f n
      = ∑ s : Fin 2, ∑ i : Fin 1024, ∑ k : Fin 8, ∑ r : Fin 1024,
          f ⟨s.val * 8388608 + i.val * 8192 + (1024 * k.val + r.val), by
            have := s.isLt; have := i.isLt; have := k.isLt; have := r.isLt; omega⟩ := by
  rw [sum_fin_split 16777216 2 8388608 (by norm_num) f]
  apply Finset.sum_congr rfl; intro s _
  rw [sum_fin_split 8388608 1024 8192 (by norm_num)]
  apply Finset.sum_congr rfl; intro i _
  rw [sum_fin_split 8192 8 1024 (by norm_num)]
  apply Finset.sum_congr rfl; intro k _
  apply Finset.sum_congr rfl; intro r _
  refine congrArg f (Fin.ext ?_)
  dsimp only
  omega

/-- A hit is 0 or 1, so it is non-negative. -/
theorem hit_nonneg (x : EReal) (b : ℕ) : 0 ≤ hit x b := by
  unfold hit
  split_ifs
  · exact zero_le_one
  · exact le_refl 0

/-- The key of position 3 · n + c is 256 · c + the bin of entry (n, c). -/
theorem key_at (X : Fin 16777216 → Fin 3 → EReal) (key : Fin 50331648 → ℤ)
    (hkey : ∀ j : Fin 50331648, key j
      = ((256 * (j.val % 3) + bin (X ⟨j.val / 3, by have := j.isLt; omega⟩ ⟨j.val % 3, Nat.mod_lt _ (by decide)⟩) : ℕ) : ℤ))
    (n : Fin 16777216) (c : Fin 3) (h : n.val * 3 + c.val < 50331648) :
    key ⟨n.val * 3 + c.val, h⟩ = ((256 * c.val + bin (X n c) : ℕ) : ℤ) := by
  have hc := c.isLt
  have e1 : (n.val * 3 + c.val) % 3 = c.val := by omega
  have e2 : (n.val * 3 + c.val) / 3 = n.val := by omega
  have hk := hkey ⟨n.val * 3 + c.val, h⟩
  simp only [e1, e2, Fin.eta] at hk
  exact hk

/-- The bin is below 256. -/
theorem bin_lt (x : EReal) : bin x < 256 := by
  unfold bin binWord
  exact (clamp_word _).1

/-- The bin word, read signed, is the bin. -/
theorem binWord_toInt (x : EReal) : (binWord x).toInt = (bin x : ℤ) := by
  unfold bin binWord
  exact (clamp_word _).2

/-- An entry has upper half a and lower half b exactly when its bin is 16 · a + b. -/
theorem hi_mul_lo (x : EReal) (a b : Fin 16) : hiHit x a.val * loHit x b.val = hit x (16 * a.val + b.val) := by
  unfold hiHit loHit hit
  have hb := b.isLt
  by_cases h1 : bin x / 16 = a.val
  · by_cases h2 : bin x % 16 = b.val
    · have h3 : bin x = 16 * a.val + b.val := by omega
      rw [if_pos h1, if_pos h2, if_pos h3, mul_one]
    · have h3 : ¬ bin x = 16 * a.val + b.val := by omega
      rw [if_pos h1, if_neg h2, if_neg h3, mul_zero]
  · have h3 : ¬ bin x = 16 * a.val + b.val := by omega
    rw [if_neg h1, if_neg h3, zero_mul]

/-- The blocks' pair counts, over 2 shards of 1024 blocks, add up to the count of bin 16 · a + b. -/
theorem blocks_count (X : Fin 16777216 → Fin 3 → EReal)
    (blk : Fin 2 → Fin 1024 → (⟨3, ![1, 8192, 3]⟩ : Shape).Idx → EReal)
    (hblk : ∀ (s : Fin 2) (i : Fin 1024) (ρ : Fin 8192) (ch : Fin 3),
      blk s i (ix3 (0 : Fin 1) ρ ch)
        = X ⟨s.val * 8388608 + i.val * 8192 + ρ.val, by have := s.isLt; have := i.isLt; have := ρ.isLt; omega⟩ ch)
    (ch : Fin 3) (a b : Fin 16) :
    ∑ s : Fin 2, ∑ i : Fin 1024, blockHits (blk s i) ch a b
      = count X ⟨16 * a.val + b.val, by have := a.isLt; have := b.isLt; omega⟩ ch := by
  unfold count
  rw [sum_rows_split]
  apply Finset.sum_congr rfl; intro s _
  apply Finset.sum_congr rfl; intro i _
  unfold blockHits
  apply Finset.sum_congr rfl; intro k _
  apply Finset.sum_congr rfl; intro r _
  rw [hi_mul_lo, hblk]

/-- The flat positions whose target is 256 · ch + b number count b ch. -/
theorem scatter_count (X : Fin 16777216 → Fin 3 → EReal) (key : Fin 50331648 → ℤ)
    (hkey : ∀ j : Fin 50331648, key j
      = ((256 * (j.val % 3) + bin (X ⟨j.val / 3, by have := j.isLt; omega⟩ ⟨j.val % 3, Nat.mod_lt _ (by decide)⟩) : ℕ) : ℤ))
    (b : Fin 256) (ch : Fin 3) :
    ∑ _j ∈ Finset.univ.filter (fun j : Fin 50331648 => key j = ((256 * ch.val + b.val : ℕ) : ℤ)), (1 : EReal)
      = count X b ch := by
  unfold count
  rw [Finset.sum_filter, sum_fin_split 50331648 16777216 3 (by norm_num)]
  apply Finset.sum_congr rfl; intro n _
  have hb := b.isLt
  rw [Finset.sum_eq_single ch]
  · rw [key_at X key hkey n ch]
    unfold hit
    by_cases h : bin (X n ch) = b.val
    · rw [if_pos h, if_pos (by rw [h])]
    · rw [if_neg h, if_neg]
      intro h'
      apply h
      omega
  · intro c _ hc
    rw [key_at X key hkey n c, if_neg]
    intro h'
    have hbin := bin_lt (X n c)
    apply hc
    apply Fin.ext
    omega
  · intro h
    exact absurd (Finset.mem_univ _) h

/-- A count is a non-negative real number. -/
theorem count_nonneg (X : Fin 16777216 → Fin 3 → EReal) (b : Fin 256) (ch : Fin 3) : 0 ≤ count X b ch := by
  unfold count
  exact Finset.sum_nonneg (fun n _ => hit_nonneg _ _)

/-- A channel's total is positive. -/
theorem total_pos (X : Fin 16777216 → Fin 3 → EReal) (ch : Fin 3) : 0 < total X ch := by
  have h1 : hit (X 0 ch) (bin (X 0 ch)) = 1 := by
    unfold hit
    rw [if_pos rfl]
  have h2 : hit (X 0 ch) (bin (X 0 ch)) ≤ count X ⟨bin (X 0 ch), bin_lt _⟩ ch := by
    unfold count
    exact Finset.single_le_sum (f := fun n : Fin 16777216 => hit (X n ch) (bin (X 0 ch)))
      (fun n _ => hit_nonneg _ _) (Finset.mem_univ 0)
  have h3 : count X ⟨bin (X 0 ch), bin_lt _⟩ ch ≤ total X ch := by
    unfold total
    exact Finset.single_le_sum (f := fun b : Fin 256 => count X b ch)
      (fun b _ => count_nonneg X b ch) (Finset.mem_univ _)
  calc (0 : EReal) < 1 := zero_lt_one
    _ = hit (X 0 ch) (bin (X 0 ch)) := h1.symm
    _ ≤ count X ⟨bin (X 0 ch), bin_lt _⟩ ch := h2
    _ ≤ total X ch := h3

end Cert.Hist

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.LibColumnBroadcast.lean ====
/-
  A column broadcast along its rows.
-/
import Idealize.ShloMosaic.Lib.Pipeline.Value
import Idealize.ShloMosaic.Lib.ValueIdx

namespace Cert.Lib

open Idealize.ShloMosaic Idealize.ShloMosaic.ValueIdx

/-- An `[a, 1]` column broadcast to `[a, b]` reads, at `(p, c)`, the column's entry in row `p`: the unit axis
    is read at `0` whatever the column `c`, the row axis is carried over. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelCell.lean ====
/-
  One chunk of 1024 rows, entry by entry.

  Every entry x of the chunk is sent to its bin word, floor(256 · x) clamped to [0, 255], a 32-bit word below 256.
  Shifting that word right by 4 gives bin / 16 and masking it with 15 gives bin % 16; both are read back as
  numbers.  Comparing a column of such numbers with the column numbers 0 … 15 gives a 16-wide matrix whose row r
  has its only 1 in the column the entry names.  The product of two such matrices contracting the rows counts, at
  cell (a, b), the rows whose two numbers are a and b; it is added to the running cell.
-/
import proofs.«110198_j74637941669897_2_alg».proof.Proof.Gen.KernelIdeal.Skeleton
import proofs.«110198_j74637941669897_2_alg».proof.Proof.HistSpec
import proofs.«110198_j74637941669897_2_alg».proof.Proof.HistCount
import proofs.«110198_j74637941669897_2_alg».proof.Proof.LibDotSum
import proofs.«110198_j74637941669897_2_alg».proof.Proof.LibColumnBroadcast
import Idealize.ShloMosaic.PureOps.Ideal.Laws
import Idealize.ShloMosaic.Lib.ValueIdx
import Idealize.ShloMosaic.Lib.Pipeline.Value

noncomputable section

open scoped BigOperators

namespace Cert.Hist.Cell

open Idealize.ShloMosaic Idealize.ShloMosaic.ValueIdx Cert.KernelIdeal Cert.KernelIdeal.Gen Cert.Hist

/-! ## The two halves of a word below 256 -/

/-- A word below 256 shifted right by 4, read signed, is its value divided by 16: the word is non-negative, so the
    arithmetic shift is the logical one. -/
theorem shr4_toInt (w : BitVec 32) (h : w.toNat < 256) :
    (IntOp.shrsi .vector w 4#32).toInt = ((w.toNat / 16 : ℕ) : ℤ) := by
  have hm : w.msb = false := by
    rw [BitVec.msb_eq_false_iff_two_mul_lt]; omega
  have e : IntOp.shrsi .vector w 4#32 = w >>> 4 := by
    unfold IntOp.shrsi
    rw [if_pos (by decide)]
    show w.sshiftRight 4 = w >>> 4
    exact BitVec.sshiftRight_eq_of_msb_false hm
  rw [e]
  have hn : (w >>> 4).toNat = w.toNat / 16 := by
    rw [BitVec.toNat_ushiftRight, Nat.shiftRight_eq_div_pow]
  rw [BitVec.toInt_eq_toNat_of_lt (by rw [hn]; omega), hn]

/-- A word masked with 15 = 2⁴ - 1, read signed, is its value modulo 16. -/
theorem and15_toInt (w : BitVec 32) :
    (IntOp.andi w 15#32).toInt = ((w.toNat % 16 : ℕ) : ℤ) := by
  have hn : (IntOp.andi w 15#32).toNat = w.toNat % 16 := by
    show (w &&& 15#32).toNat = _
    rw [BitVec.toNat_and]
    show w.toNat &&& (2 ^ 4 - 1) = _
    exact Nat.and_two_pow_sub_one_eq_mod _ 4
  rw [BitVec.toInt_eq_toNat_of_lt (by rw [hn]; omega), hn]

/-! ## The chunk's entries: bin word, upper half, lower half -/

/-- The chunk [1, 1024, 3] read as [1024, 3]: entry (r, ch) is entry (0, r, ch); both sit at row-major
    position 3 · r + ch. -/
theorem chunk_cast_apply (v12 : Vec Ideal S1x1024x3 .f32) (r : Fin 1024) (ch : Fin 3) :
    shapeCast S1024x3 v12 shapeCasts_S1x1024x3_S1024x3 (ix2 r ch) = v12 (ix3 (0 : Fin 1) r ch) := by
  refine shapeCast_apply _ _ (ix2 r ch) (ix3 (0 : Fin 1) r ch) ?_
  rw [Shape.rowMajor_val_three, Shape.rowMajor_val_two]
  show (0 * 1024 + r.val) * 3 + ch.val = r.val * 3 + ch.val
  omega

/-- Entry (r, ch) of the chunk's words is the bin word of the chunk's entry (0, r, ch): the same scalar
    operations in the same order. -/
theorem pay3_apply (v12 : Vec Ideal S1x1024x3 .f32) (r : Fin 1024) (ch : Fin 3) :
    k0_pay3 (F := Ideal) v12 (ix2 r ch) = binWord (v12 (ix3 (0 : Fin 1) r ch)) := by
  unfold k0_pay3 binWord
  show IntOp.minsi 255#32 (IntOp.maxsi 0#32 (FloatOps.fptosi (F := Ideal) (φ := .f32) 32 (FloatOps.floor (F := Ideal) (φ := .f32)
      (FloatOps.mulf (F := Ideal) (φ := .f32) (shapeCast S1024x3 v12 shapeCasts_S1x1024x3_S1024x3 (ix2 r ch))
        (FloatOps.ofBits (F := Ideal) .f32 0x43800000#32))))) = _
  rw [chunk_cast_apply]

/-- The upper halves: entry (r, ch) is bin / 16, as a number. -/
theorem pay4_apply (v12 : Vec Ideal S1x1024x3 .f32) (r : Fin 1024) (ch : Fin 3) :
    k0_pay4 (F := Ideal) v12 (ix2 r ch) = (((bin (v12 (ix3 (0 : Fin 1) r ch)) / 16 : ℕ) : ℝ) : EReal) := by
  unfold k0_pay4
  show ((((IntOp.shrsi .vector (k0_pay3 (F := Ideal) v12 (ix2 r ch)) 4#32).toInt : ℤ) : ℝ) : EReal) = _
  rw [pay3_apply, shr4_toInt _ (bin_lt _), Int.cast_natCast]
  rfl

/-- The lower halves: entry (r, ch) is bin % 16, as a number. -/
theorem pay5_apply (v12 : Vec Ideal S1x1024x3 .f32) (r : Fin 1024) (ch : Fin 3) :
    k0_pay5 (F := Ideal) v12 (ix2 r ch) = (((bin (v12 (ix3 (0 : Fin 1) r ch)) % 16 : ℕ) : ℝ) : EReal) := by
  unfold k0_pay5
  show ((((IntOp.andi (k0_pay3 (F := Ideal) v12 (ix2 r ch)) 15#32).toInt : ℤ) : ℝ) : EReal) = _
  rw [pay3_apply, and15_toInt, Int.cast_natCast]
  rfl

/-- The column numbers: entry (r, a) of the iota along the columns is a, as a number. -/
theorem pay2_apply (r : Fin 1024) (a : Fin 16) :
    k0_pay2 (F := Ideal) (ix2 r a) = (((a.val : ℕ) : ℝ) : EReal) := by
  unfold k0_pay2
  show (((BitVec.ofNat 32 (0 * 16 + a.val)).toInt : ℝ) : EReal) = _
  have : (BitVec.ofNat 32 (0 * 16 + a.val)).toInt = (a.val : ℤ) := by
    have ha := a.isLt
    rw [BitVec.toInt_eq_toNat_of_lt (by rw [BitVec.toNat_ofNat]; omega), BitVec.toNat_ofNat]
    congr 1; omega
  rw [this]
  simp

/-! ## The one-hot matrix of a column -/

/-- The comparison of two natural numbers as extended reals, widened to a word and read back: 1 when they are equal,
    else 0. -/
theorem hot_entry (n a : ℕ) (h : FTy.bits .bf16 < FTy.bits .f32) :
    FloatOps.truncf (F := Ideal) (φ := .f32) .bf16 h (FloatOps.sitofp (F := Ideal) .f32
      ((FloatOps.cmpf (F := Ideal) (φ := .bf16) .oeq (((n : ℕ) : ℝ) : EReal) (((a : ℕ) : ℝ) : EReal)).setWidth 32))
      = if n = a then 1 else 0 := by
  show ((((BitVec.ofBool (decide ((((n : ℕ) : ℝ) : EReal) = (((a : ℕ) : ℝ) : EReal)))).setWidth 32).toInt : ℝ) : EReal) = _
  by_cases hna : n = a
  · subst hna
    rw [if_pos rfl, decide_eq_true rfl]
    have : ((BitVec.ofBool true).setWidth 32).toInt = 1 := by decide
    rw [this]; simp
  · have hne : ¬ ((((n : ℕ) : ℝ) : EReal) = (((a : ℕ) : ℝ) : EReal)) := by
      rw [EReal.coe_eq_coe_iff, Nat.cast_inj]; exact hna
    rw [if_neg hna, decide_eq_false hne]
    have : ((BitVec.ofBool false).setWidth 32).toInt = 0 := by decide
    rw [this]; simp

/-- One column of a [1024, 3] array compared, entry by entry, with a [1024, 16] array of column numbers: row r has
    its 1 in the column the entry names. -/
def hot (v5 : FVec Ideal S1024x16 .bf16) (v : FVec Ideal S1024x3 .bf16) (off : Fin S1024x3.rank → Nat)
    (h : S1024x3.Slices off S1024x1) : FVec Ideal S1024x16 .bf16 :=
  truncf .bf16 (sitofp .f32 (extui 32 (cmpf .oeq
    (broadcastTo S1024x16 (extractStridedSlice S1024x1 off v h) broadcasts_S1024x1_S1024x16) v5) natLt_1_32)) bitsLt_bf16_f32

/-- Entry (r, a) of the one-hot matrix of column ch: 1 when the column's entry in row r is a, else 0.  The slice
    at offset (0, ch) read at (r, 0) is the array at (r, ch), and the broadcast along the columns reads it at every
    column. -/
theorem hot_apply (v5 : FVec Ideal S1024x16 .bf16) (v : FVec Ideal S1024x3 .bf16) (off : Fin S1024x3.rank → Nat)
    (h : S1024x3.Slices off S1024x1) (ch : Fin 3) (h0 : off 0 = 0) (h1 : off 1 = ch.val)
    (r : Fin 1024) (a : Fin 16) (n : ℕ)
    (hv5 : v5 (ix2 r a) = (((a.val : ℕ) : ℝ) : EReal)) (hv : v (ix2 r ch) = (((n : ℕ) : ℝ) : EReal)) :
    hot v5 v off h (ix2 r a) = if n = a.val then 1 else 0 := by
  have e1 : broadcastTo S1024x16 (extractStridedSlice S1024x1 off v h) broadcasts_S1024x1_S1024x16 (ix2 r a)
      = v (ix2 r ch) := by
    refine (Cert.Lib.broadcastTo_a1_ab_apply _ _ r a).trans ?_
    refine extractStridedSlice_apply off v h (ix2 r (0 : Fin 1)) (ix2 r ch) fun ax => ?_
    match ax with
    | ⟨0, _⟩ => show r.val = off 0 + r.val; rw [h0]; omega
    | ⟨1, _⟩ => show ch.val = off 1 + 0; rw [h1]; omega
  show FloatOps.truncf (F := Ideal) (φ := .f32) .bf16 bitsLt_bf16_f32 (FloatOps.sitofp (F := Ideal) .f32
      ((FloatOps.cmpf (F := Ideal) (φ := .bf16) .oeq
        (broadcastTo S1024x16 (extractStridedSlice S1024x1 off v h) broadcasts_S1024x1_S1024x16 (ix2 r a))
        (v5 (ix2 r a))).setWidth 32)) = _
  rw [e1, hv, hv5]
  exact hot_entry n a.val _

/-! ## The product at a cell -/

/-- The product of two [1024, 16] matrices contracting the rows, into a zero block, at cell (a, b): the sum over
    the rows of the products of the entries in columns a and b. -/
theorem prod_apply (L R : FVec Ideal S1024x16 .bf16) (a b : Fin 16) :
    matmul dot_S1024x16_S1024x16_S16x16_0_0_1_1_n_n none L R (constant S16x16 .f32 0x00000000#32) (ix2 a b)
      = ∑ r : Fin 1024, L (ix2 r a) * R (ix2 r b) := by
  show FloatOps.matmul dot_S1024x16_S1024x16_S16x16_0_0_1_1_n_n none L R (constant S16x16 .f32 0x00000000#32) (ix2 a b) = _
  rw [Ideal.matmul_constant_zero_apply]
  refine Cert.LibDotSum.sum_contr_eq dot_S1024x16_S1024x16_S16x16_0_0_1_1_n_n 1024 rfl rfl L R (ix2 a b)
    (fun r => L (ix2 r a)) (fun r => R (ix2 r b)) (fun i => ?_) (fun i => ?_)
  · have c := contrEquiv1_symm_val dot_S1024x16_S1024x16_S16x16_0_0_1_1_n_n 1024 rfl rfl i
    refine congrArg L ?_
    funext ax; apply Fin.ext
    match ax with
    | ⟨0, _⟩ => simp [DotDims.lhsIdx, dot_S1024x16_S1024x16_S16x16_0_0_1_1_n_n]; exact c
    | ⟨1, _⟩ => simp [DotDims.lhsIdx, dot_S1024x16_S1024x16_S16x16_0_0_1_1_n_n]; rfl
  · have c := contrEquiv1_symm_val dot_S1024x16_S1024x16_S16x16_0_0_1_1_n_n 1024 rfl rfl i
    refine congrArg R ?_
    funext ax; apply Fin.ext
    match ax with
    | ⟨0, _⟩ => simp [DotDims.rhsIdx, dot_S1024x16_S1024x16_S16x16_0_0_1_1_n_n]; exact c
    | ⟨1, _⟩ => simp [DotDims.rhsIdx, dot_S1024x16_S1024x16_S16x16_0_0_1_1_n_n]; rfl

/-! ## The running cell -/

/-- A [1, 1, 16, 16] piece read as [16, 16]: entry (a, b) is entry (0, 0, a, b). -/
theorem piece_cast_apply (acc : Vec Ideal S1x1x16x16 .f32) (a b : Fin 16) :
    shapeCast S16x16 acc shapeCasts_S1x1x16x16_S16x16 (ix2 a b) = acc (ix4 (0 : Fin 1) (0 : Fin 1) a b) := by
  refine shapeCast_apply _ _ (ix2 a b) (ix4 (0 : Fin 1) (0 : Fin 1) a b) ?_
  rw [Shape.rowMajor_val_four, Shape.rowMajor_val_two]
  show ((0 * 1 + 0) * 16 + a.val) * 16 + b.val = a.val * 16 + b.val
  omega

/-- A [16, 16] block laid out as a [1, 1, 16, 16] piece: entry (0, 0, a, b) is entry (a, b). -/
theorem block_cast_apply (v : FVec Ideal S16x16 .f32) (a b : Fin 16) :
    shapeCast S1x1x16x16 v shapeCasts_S16x16_S1x1x16x16 (ix4 (0 : Fin 1) (0 : Fin 1) a b) = v (ix2 a b) := by
  refine shapeCast_apply _ _ (ix4 (0 : Fin 1) (0 : Fin 1) a b) (ix2 a b) ?_
  rw [Shape.rowMajor_val_four, Shape.rowMajor_val_two]
  show a.val * 16 + b.val = ((0 * 1 + 0) * 16 + a.val) * 16 + b.val
  omega

/-- The running [16, 16] cell of one channel after a chunk: the piece read as [16, 16] plus the product of the
    channel's two one-hot matrices. -/
def cell (v5 : FVec Ideal S1024x16 .bf16) (v25 v29 : FVec Ideal S1024x3 .bf16) (off : Fin S1024x3.rank → Nat)
    (h : S1024x3.Slices off S1024x1) (acc : Vec Ideal S1x1x16x16 .f32) : FVec Ideal S16x16 .f32 :=
  addf (shapeCast S16x16 acc shapeCasts_S1x1x16x16_S16x16)
    (matmul dot_S1024x16_S1024x16_S16x16_0_0_1_1_n_n none (hot v5 v25 off h) (hot v5 v29 off h)
      (constant S16x16 .f32 0x00000000#32))

/-- Cell (a, b) after a chunk: the running cell plus the number of the chunk's rows whose entry in channel ch
    has halves (a, b). -/
theorem cell_apply (v5 : FVec Ideal S1024x16 .bf16)
    (hv5 : ∀ (r : Fin 1024) (a : Fin 16), v5 (ix2 r a) = (((a.val : ℕ) : ℝ) : EReal))
    (v12 : Vec Ideal S1x1024x3 .f32) (off : Fin S1024x3.rank → Nat) (h : S1024x3.Slices off S1024x1)
    (ch : Fin 3) (h0 : off 0 = 0) (h1 : off 1 = ch.val) (acc : Vec Ideal S1x1x16x16 .f32) (a b : Fin 16) :
    cell v5 (k0_pay4 (F := Ideal) v12) (k0_pay5 (F := Ideal) v12) off h acc (ix2 a b)
      = acc (ix4 (0 : Fin 1) (0 : Fin 1) a b)
        + ∑ r : Fin 1024, hiHit (v12 (ix3 (0 : Fin 1) r ch)) a.val * loHit (v12 (ix3 (0 : Fin 1) r ch)) b.val := by
  show FloatOps.addf (F := Ideal) (φ := .f32) (shapeCast S16x16 acc shapeCasts_S1x1x16x16_S16x16 (ix2 a b))
      (matmul dot_S1024x16_S1024x16_S16x16_0_0_1_1_n_n none (hot v5 (k0_pay4 (F := Ideal) v12) off h)
        (hot v5 (k0_pay5 (F := Ideal) v12) off h) (constant S16x16 .f32 0x00000000#32) (ix2 a b)) = _
  rw [prod_apply, piece_cast_apply]
  show _ + _ = _
  refine congrArg (acc (ix4 (0 : Fin 1) (0 : Fin 1) a b) + ·) (Finset.sum_congr rfl fun r _ => ?_)
  rw [hot_apply v5 _ off h ch h0 h1 r a _ (hv5 r a) (pay4_apply v12 r ch),
    hot_apply v5 _ off h ch h0 h1 r b _ (hv5 r b) (pay5_apply v12 r ch)]
  rfl

end Cert.Hist.Cell

end
-- ==== Proof.KernelPayload.lean ====
/-
  The arithmetic of one chunk of 1024 rows, read at one cell.

  For a channel, the chunk's rows are turned into two 16-wide one-hot matrices — row r has its 1 in
  column (bin / 16) of the first and in column (bin % 16) of the second — and the two are multiplied
  contracting the rows, so that cell (a, b) of the product is the number of rows of the chunk whose
  bin has halves (a, b).  That number is added to the running cell.
-/
import proofs.«110198_j74637941669897_2_alg».proof.Proof.Gen.KernelIdeal.Skeleton
import proofs.«110198_j74637941669897_2_alg».proof.Proof.HistSpec
import proofs.«110198_j74637941669897_2_alg».proof.Proof.HistCount
import proofs.«110198_j74637941669897_2_alg».proof.Proof.KernelCell
import Idealize.ShloMosaic.PureOps.Ideal.Laws
import Idealize.ShloMosaic.Lib.ValueIdx
import Idealize.ShloMosaic.Lib.Pipeline.Value

noncomputable section

open scoped BigOperators

namespace Cert.Hist.Payload

open Idealize.ShloMosaic Idealize.ShloMosaic.ValueIdx Cert.KernelIdeal Cert.KernelIdeal.Gen Cert.Hist

/-- The zero block every shard starts from. -/
theorem pay1_apply (j : S1x3x16x16.Idx) : k0_pay1 (F := Ideal) j = 0 := by
  unfold k0_pay1
  show Ideal.ofBits .f32 0x00000000#32 = 0
  exact Ideal.ofBits_zero_f32

/-- Channel 0: the running cell plus the chunk's rows with halves (a, b). -/
theorem pay6_apply (v12 : Vec Ideal S1x1024x3 .f32) (v43 : Vec Ideal S1x1x16x16 .f32) (a b : Fin 16) :
    k0_pay6 (F := Ideal) (k0_pay2 (F := Ideal)) v12 v43 (ix2 a b)
      = v43 (ix4 (0 : Fin 1) (0 : Fin 1) a b)
        + ∑ r : Fin 1024, hiHit (v12 (ix3 (0 : Fin 1) r (0 : Fin 3))) a.val * loHit (v12 (ix3 (0 : Fin 1) r (0 : Fin 3))) b.val := by
  exact Cell.cell_apply (k0_pay2 (F := Ideal)) Cell.pay2_apply v12 ![0, 0] slices_S1024x3_o0_0_S1024x1 (0 : Fin 3) rfl rfl v43 a b

/-- The channel-0 cell laid out as a [1, 1, 16, 16] piece. -/
theorem pay7_apply (v45 : FVec Ideal S16x16 .f32) (a b : Fin 16) :
    k0_pay7 (F := Ideal) v45 (ix4 (0 : Fin 1) (0 : Fin 1) a b) = v45 (ix2 a b) := by
  unfold k0_pay7
  exact Cell.block_cast_apply v45 a b

/-- Channel 1. -/
theorem pay8_apply (v12 : Vec Ideal S1x1024x3 .f32) (v62 : Vec Ideal S1x1x16x16 .f32) (a b : Fin 16) :
    k0_pay8 (F := Ideal) (k0_pay2 (F := Ideal)) (k0_pay4 (F := Ideal) v12) (k0_pay5 (F := Ideal) v12) v62 (ix4 (0 : Fin 1) (0 : Fin 1) a b)
      = v62 (ix4 (0 : Fin 1) (0 : Fin 1) a b)
        + ∑ r : Fin 1024, hiHit (v12 (ix3 (0 : Fin 1) r (1 : Fin 3))) a.val * loHit (v12 (ix3 (0 : Fin 1) r (1 : Fin 3))) b.val := by
  unfold k0_pay8
  refine (Cell.block_cast_apply _ a b).trans ?_
  exact Cell.cell_apply (k0_pay2 (F := Ideal)) Cell.pay2_apply v12 ![0, 1] slices_S1024x3_o0_1_S1024x1 (1 : Fin 3) rfl rfl v62 a b

/-- Channel 2. -/
theorem pay9_apply (v12 : Vec Ideal S1x1024x3 .f32) (v81 : Vec Ideal S1x1x16x16 .f32) (a b : Fin 16) :
    k0_pay9 (F := Ideal) (k0_pay2 (F := Ideal)) (k0_pay4 (F := Ideal) v12) (k0_pay5 (F := Ideal) v12) v81 (ix4 (0 : Fin 1) (0 : Fin 1) a b)
      = v81 (ix4 (0 : Fin 1) (0 : Fin 1) a b)
        + ∑ r : Fin 1024, hiHit (v12 (ix3 (0 : Fin 1) r (2 : Fin 3))) a.val * loHit (v12 (ix3 (0 : Fin 1) r (2 : Fin 3))) b.val := by
  unfold k0_pay9
  refine (Cell.block_cast_apply _ a b).trans ?_
  exact Cell.cell_apply (k0_pay2 (F := Ideal)) Cell.pay2_apply v12 ![0, 2] slices_S1024x3_o0_2_S1024x1 (2 : Fin 3) rfl rfl v81 a b

end Cert.Hist.Payload

end
-- ==== Proof.KernelTrip.lean ====
/-
  One trip of the body's counted loop, as the list of its stores.

  Trip k reads the chunk of rows [1024 k, 1024 k + 1024) of the input block and, for each channel
  ch = 0, 1, 2, reads slice ch of the accumulator block and stores back that slice with the chunk's
  pair counts added.  The three slices are disjoint, so every slice is read at the contents the trip
  found.  The list is written last store first.
-/
import proofs.«110198_j74637941669897_2_alg».proof.Proof.Gen.KernelIdeal.Loops
import Idealize.ShloMosaic.Lib.Tactic

noncomputable section

namespace Cert.Hist.Body

open Idealize.ShloMosaic Idealize.ShloMosaic.TcCoe Idealize.ShloMosaic.Tactic Cert.KernelIdeal Cert.KernelIdeal.Gen

variable {F : FTy → Type} [FloatOps F]

/-- The chunk of the input block that trip k loads. -/
abbrev chunkOf (arg2 : Memref sig .tc .vmem S1x8192x3 .f32) (X : BufTy.Contents (Elt F) arg2.view.ty)
    (k : Fin k0_t1_loop.trips) : Vec F S1x1024x3 .f32 :=
  View.readAt (Elt F) arg2.view (Rect.unit (s := S1x8192x3) (k0_off1 k) S1x1024x3.size (k0_off1_inb k)).toLoadRect X

/-- Slice ch of the accumulator block as the trip finds it, for ch = 0, 1, 2. -/
abbrev slice0Of (arg3 : Memref sig .tc .vmem S1x3x16x16 .f32) (f : BufTy.Contents (Elt F) arg3.view.ty) : Vec F S1x1x16x16 .f32 :=
  View.readAt (Elt F) arg3.view (Rect.unit (s := S1x3x16x16) ![0, 0, 0, 0] S1x1x16x16.size inb_S1x3x16x16_S1x1x16x16_0_0_0_0).toLoadRect f
abbrev slice1Of (arg3 : Memref sig .tc .vmem S1x3x16x16 .f32) (f : BufTy.Contents (Elt F) arg3.view.ty) : Vec F S1x1x16x16 .f32 :=
  View.readAt (Elt F) arg3.view (Rect.unit (s := S1x3x16x16) ![0, 1, 0, 0] S1x1x16x16.size inb_S1x3x16x16_S1x1x16x16_0_1_0_0).toLoadRect f
abbrev slice2Of (arg3 : Memref sig .tc .vmem S1x3x16x16 .f32) (f : BufTy.Contents (Elt F) arg3.view.ty) : Vec F S1x1x16x16 .f32 :=
  View.readAt (Elt F) arg3.view (Rect.unit (s := S1x3x16x16) ![0, 2, 0, 0] S1x1x16x16.size inb_S1x3x16x16_S1x1x16x16_0_2_0_0).toLoadRect f

/-- The three stores of trip k, last first: slice 2, slice 1, slice 0, each its slice plus the chunk's pair counts. -/
theorem tripL_eq (𝒱 : Variants) (c : Dev nD) (bd : Option 𝒱.V) (i : grid0.Coords)
    (arg2 : Memref sig .tc .vmem S1x8192x3 .f32) (harg2 : arg2.IsWhole)
    (arg3 : Memref sig .tc .vmem S1x3x16x16 .f32) (harg3 : arg3.IsWhole)
    (X : BufTy.Contents (Elt F) arg2.view.ty) (k : Fin k0_t1_loop.trips)
    (f : BufTy.Contents (Elt F) arg3.view.ty) :
    tripL_k0_t1 (F := F) 𝒱 c bd i arg2 harg2 arg3 harg3 X k f
      = [⟨Rect.unit (s := S1x3x16x16) ![0, 2, 0, 0] ![1, 1, 16, 16] inb_S1x3x16x16_S1x1x16x16_0_2_0_0,
          k0_pay9 (F := F) (k0_pay2 (F := F)) (k0_pay4 (chunkOf arg2 X k)) (k0_pay5 (chunkOf arg2 X k)) (slice2Of arg3 f)⟩,
         ⟨Rect.unit (s := S1x3x16x16) ![0, 1, 0, 0] ![1, 1, 16, 16] inb_S1x3x16x16_S1x1x16x16_0_1_0_0,
          k0_pay8 (F := F) (k0_pay2 (F := F)) (k0_pay4 (chunkOf arg2 X k)) (k0_pay5 (chunkOf arg2 X k)) (slice1Of arg3 f)⟩,
         ⟨Rect.unit (s := S1x3x16x16) ![0, 0, 0, 0] ![1, 1, 16, 16] inb_S1x3x16x16_S1x1x16x16_0_0_0_0,
          k0_pay7 (F := F) (k0_pay6 (F := F) (k0_pay2 (F := F)) (chunkOf arg2 X k) (slice0Of arg3 f))⟩] := by
  unfold tripL_k0_t1 trip_k0_t1
  dsimp only
  sl_unfold_words
  rfl

end Cert.Hist.Body

end
-- ==== Proof.KernelLoop.lean ====
/-
  The body's counted loop, read at one cell of the accumulator block.

  One trip adds, to cell (ch, a, b), the number of rows of its chunk of channel ch whose bin has
  halves (a, b): the cell is under exactly one of the trip's three stores, whose payload is the
  slice the trip found plus the chunk's pair counts.  By induction on the trips, after n trips the
  cell holds what it held at loop entry plus the pair counts of the first n chunks; after all 8
  trips, plus the block's pair counts.
-/
import proofs.«110198_j74637941669897_2_alg».proof.Proof.KernelTrip
import proofs.«110198_j74637941669897_2_alg».proof.Proof.KernelPayload
import Idealize.ShloMosaic.Lib.WritesUnit

noncomputable section

open scoped BigOperators

namespace Cert.Hist.Body

open Idealize.ShloMosaic Idealize.ShloMosaic.ValueIdx Cert.KernelIdeal Cert.KernelIdeal.Gen Cert.Hist

/-- The loop runs 8 trips. -/
theorem trips_eq : k0_t1_loop.trips = 8 := by decide

/-- The pair counts of chunk k of a block: its rows [1024 k, 1024 k + 1024) of channel ch with halves (a, b). -/
def chunkHits (x : Vec Ideal S1x8192x3 .f32) (k : ℕ) (hk : k < 8) (ch : Fin 3) (a b : Fin 16) : EReal :=
  ∑ r : Fin 1024,
    hiHit (x (ix3 (0 : Fin 1) (⟨1024 * k + r.val, by have := r.isLt; omega⟩ : Fin 8192) ch)) a.val
      * loHit (x (ix3 (0 : Fin 1) (⟨1024 * k + r.val, by have := r.isLt; omega⟩ : Fin 8192) ch)) b.val

/-- The same for any trip number: nothing past the last chunk. -/
def chunkHitsN (x : Vec Ideal S1x8192x3 .f32) (k : ℕ) (ch : Fin 3) (a b : Fin 16) : EReal :=
  if hk : k < 8 then chunkHits x k hk ch a b else 0

/-- A block's pair counts are those of its 8 chunks. -/
theorem blockHits_eq_sum (x : Vec Ideal S1x8192x3 .f32) (ch : Fin 3) (a b : Fin 16) :
    blockHits x ch a b = ∑ k ∈ Finset.range 8, chunkHitsN x k ch a b := by
  rw [Finset.sum_range]
  exact Finset.sum_congr rfl fun k _ => by unfold chunkHitsN; rw [dif_pos k.isLt]; rfl

/-- Row r of the chunk trip k loads is row 1024 k + r of the block. -/
theorem chunk_idx (k : Fin k0_t1_loop.trips) (r : Fin 1024) (ch : Fin 3) (h : 1024 * k.val + r.val < 8192) :
    (Rect.unit (s := S1x8192x3) (k0_off1 k) S1x1024x3.size (k0_off1_inb k)).toLoadRect.idx (ix3 (0 : Fin 1) r ch)
      = ix3 (0 : Fin 1) (⟨1024 * k.val + r.val, h⟩ : Fin 8192) ch := by
  funext a'
  apply Fin.ext
  show k0_off1 k a' + 1 * ((ix3 (0 : Fin 1) r ch : S1x1024x3.Idx) a').val = _
  rw [k0_off1_eq k]
  match a' with
  | ⟨0, _⟩ => rfl
  | ⟨1, _⟩ => show 1024 * k.val + 1 * r.val = 1024 * k.val + r.val; omega
  | ⟨2, _⟩ => show 0 + 1 * ch.val = ch.val; omega

/-- The chunk trip k loads, read at a row. -/
theorem chunkOf_apply (arg2 : Memref sig .tc .vmem S1x8192x3 .f32) (X : BufTy.Contents (Elt Ideal) arg2.view.ty)
    (k : Fin k0_t1_loop.trips) (r : Fin 1024) (ch : Fin 3) (h : 1024 * k.val + r.val < 8192) :
    chunkOf (F := Ideal) arg2 X k (ix3 (0 : Fin 1) r ch)
      = arg2.view.read (Elt Ideal) X (ix3 (0 : Fin 1) (⟨1024 * k.val + r.val, h⟩ : Fin 8192) ch) :=
  congrArg (arg2.view.read (Elt Ideal) X) (chunk_idx k r ch h)

/-- Cell (a, b) of the slice at channel ch is cell (ch, a, b) of the block. -/
theorem slice_idx {off : Fin 4 → ℕ} (inb : ∀ a', off a' + S1x1x16x16.size a' ≤ S1x3x16x16.size a') (ch : Fin 3)
    (hoff : off = ![0, ch.val, 0, 0]) (a b : Fin 16) :
    (Rect.unit (s := S1x3x16x16) off S1x1x16x16.size inb).toLoadRect.idx (ix4 (0 : Fin 1) (0 : Fin 1) a b)
      = ix4 (0 : Fin 1) ch a b := by
  subst hoff
  funext a'
  apply Fin.ext
  match a' with
  | ⟨0, _⟩ => rfl
  | ⟨1, _⟩ => show ch.val + 1 * 0 = ch.val; omega
  | ⟨2, _⟩ => show 0 + 1 * a.val = a.val; omega
  | ⟨3, _⟩ => show 0 + 1 * b.val = b.val; omega

/-- The pair counts a payload adds, over the loaded chunk, are the chunk's pair counts over the block. -/
theorem chunk_sum (arg2 : Memref sig .tc .vmem S1x8192x3 .f32) (X : BufTy.Contents (Elt Ideal) arg2.view.ty)
    (k : Fin k0_t1_loop.trips) (hk : k.val < 8) (ch : Fin 3) (a b : Fin 16) :
    (∑ r : Fin 1024, hiHit (chunkOf (F := Ideal) arg2 X k (ix3 (0 : Fin 1) r ch)) a.val
        * loHit (chunkOf (F := Ideal) arg2 X k (ix3 (0 : Fin 1) r ch)) b.val)
      = chunkHits (arg2.view.read (Elt Ideal) X) k.val hk ch a b := by
  unfold chunkHits
  exact Finset.sum_congr rfl fun r _ => by
    rw [chunkOf_apply arg2 X k r ch (by have := r.isLt; omega)]

/-- ONE TRIP at a cell: what the cell held plus the chunk's pair counts. -/
theorem trip_read (𝒱 : Variants) (c : Dev nD) (bd : Option 𝒱.V) (i : grid0.Coords)
    (arg2 : Memref sig .tc .vmem S1x8192x3 .f32) (harg2 : arg2.IsWhole)
    (arg3 : Memref sig .tc .vmem S1x3x16x16 .f32) (harg3 : arg3.IsWhole)
    (X : BufTy.Contents (Elt Ideal) arg2.view.ty) (k : Fin k0_t1_loop.trips) (hk : k.val < 8)
    (f : BufTy.Contents (Elt Ideal) arg3.view.ty) (ch : Fin 3) (a b : Fin 16) :
    arg3.view.read (Elt Ideal) (arg3.view.writes (Elt Ideal) f
        (tripL_k0_t1 (F := Ideal) 𝒱 c bd i arg2 harg2 arg3 harg3 X k f)) (ix4 (0 : Fin 1) ch a b)
      = arg3.view.read (Elt Ideal) f (ix4 (0 : Fin 1) ch a b)
        + chunkHits (arg2.view.read (Elt Ideal) X) k.val hk ch a b := by
  rw [tripL_eq]
  rcases (by decide : ∀ ch : Fin 3, ch = 0 ∨ ch = 1 ∨ ch = 2) ch with rfl | rfl | rfl
  · -- channel 0: past the stores of slices 2 and 1, under the store of slice 0
    refine (View.read_writes_cons_unit_of_not_mem arg3.view f inb_S1x3x16x16_S1x1x16x16_0_2_0_0 _ _
      (ix4 (0 : Fin 1) (0 : Fin 3) a b) rfl (1 : Fin 4) (Or.inl (show (0 : ℕ) < 2 from Nat.zero_lt_two))).trans ?_
    refine (View.read_writes_cons_unit_of_not_mem arg3.view f inb_S1x3x16x16_S1x1x16x16_0_1_0_0 _ _
      (ix4 (0 : Fin 1) (0 : Fin 3) a b) rfl (1 : Fin 4) (Or.inl (show (0 : ℕ) < 1 from Nat.zero_lt_one))).trans ?_
    refine (View.read_writes_cons_unit_of_mem arg3.view f inb_S1x3x16x16_S1x1x16x16_0_0_0_0 _ _
      (ix4 (0 : Fin 1) (0 : Fin 3) a b) (ix4 (0 : Fin 1) (0 : Fin 1) a b) rfl
      (fun a' => match a' with
        | ⟨0, _⟩ => rfl | ⟨1, _⟩ => rfl | ⟨2, _⟩ => (Nat.zero_add _).symm | ⟨3, _⟩ => (Nat.zero_add _).symm)).trans ?_
    rw [Payload.pay7_apply, Payload.pay6_apply, chunk_sum arg2 X k hk (0 : Fin 3) a b]
    exact congrArg (· + _) (congrArg (arg3.view.read (Elt Ideal) f)
      (slice_idx inb_S1x3x16x16_S1x1x16x16_0_0_0_0 (0 : Fin 3) rfl a b))
  · -- channel 1: past the store of slice 2, under the store of slice 1
    refine (View.read_writes_cons_unit_of_not_mem arg3.view f inb_S1x3x16x16_S1x1x16x16_0_2_0_0 _ _
      (ix4 (0 : Fin 1) (1 : Fin 3) a b) rfl (1 : Fin 4) (Or.inl (show (1 : ℕ) < 2 from Nat.one_lt_two))).trans ?_
    refine (View.read_writes_cons_unit_of_mem arg3.view f inb_S1x3x16x16_S1x1x16x16_0_1_0_0 _ _
      (ix4 (0 : Fin 1) (1 : Fin 3) a b) (ix4 (0 : Fin 1) (0 : Fin 1) a b) rfl
      (fun a' => match a' with
        | ⟨0, _⟩ => rfl | ⟨1, _⟩ => rfl | ⟨2, _⟩ => (Nat.zero_add _).symm | ⟨3, _⟩ => (Nat.zero_add _).symm)).trans ?_
    rw [Payload.pay8_apply, chunk_sum arg2 X k hk (1 : Fin 3) a b]
    exact congrArg (· + _) (congrArg (arg3.view.read (Elt Ideal) f)
      (slice_idx inb_S1x3x16x16_S1x1x16x16_0_1_0_0 (1 : Fin 3) rfl a b))
  · -- channel 2: under the store of slice 2
    refine (View.read_writes_cons_unit_of_mem arg3.view f inb_S1x3x16x16_S1x1x16x16_0_2_0_0 _ _
      (ix4 (0 : Fin 1) (2 : Fin 3) a b) (ix4 (0 : Fin 1) (0 : Fin 1) a b) rfl
      (fun a' => match a' with
        | ⟨0, _⟩ => rfl | ⟨1, _⟩ => rfl | ⟨2, _⟩ => (Nat.zero_add _).symm | ⟨3, _⟩ => (Nat.zero_add _).symm)).trans ?_
    rw [Payload.pay9_apply, chunk_sum arg2 X k hk (2 : Fin 3) a b]
    exact congrArg (· + _) (congrArg (arg3.view.read (Elt Ideal) f)
      (slice_idx inb_S1x3x16x16_S1x1x16x16_0_2_0_0 (2 : Fin 3) rfl a b))

/-- THE LOOP at a cell, after n trips: what the cell held at loop entry plus the pair counts of the
    first n chunks. -/
theorem loop_read (𝒱 : Variants) (c : Dev nD) (bd : Option 𝒱.V) (i : grid0.Coords)
    (arg2 : Memref sig .tc .vmem S1x8192x3 .f32) (harg2 : arg2.IsWhole)
    (arg3 : Memref sig .tc .vmem S1x3x16x16 .f32) (harg3 : arg3.IsWhole)
    (X : BufTy.Contents (Elt Ideal) arg2.view.ty) (G : BufTy.Contents (Elt Ideal) arg3.view.ty)
    (ch : Fin 3) (a b : Fin 16) :
    ∀ (n : ℕ), n ≤ 8 →
      arg3.view.read (Elt Ideal) (arg3.view.writes (Elt Ideal) G
          (pb_k0_t1 (F := Ideal) 𝒱 c bd i arg2 harg2 arg3 harg3 X G n)) (ix4 (0 : Fin 1) ch a b)
        = arg3.view.read (Elt Ideal) G (ix4 (0 : Fin 1) ch a b)
          + ∑ k ∈ Finset.range n, chunkHitsN (arg2.view.read (Elt Ideal) X) k ch a b
  | 0, _ => by
    rw [Finset.range_zero, Finset.sum_empty, add_zero]
    rfl
  | n + 1, hn => by
    have hlt : n < k0_t1_loop.trips := by rw [trips_eq]; omega
    have hk : n < 8 := by omega
    have e : pb_k0_t1 (F := Ideal) 𝒱 c bd i arg2 harg2 arg3 harg3 X G (n + 1)
        = tripL_k0_t1 (F := Ideal) 𝒱 c bd i arg2 harg2 arg3 harg3 X ⟨n, hlt⟩
            (arg3.view.writes (Elt Ideal) G (pb_k0_t1 (F := Ideal) 𝒱 c bd i arg2 harg2 arg3 harg3 X G n))
          ++ pb_k0_t1 (F := Ideal) 𝒱 c bd i arg2 harg2 arg3 harg3 X G n :=
      pb_k0_t1_succ (F := Ideal) 𝒱 c bd i arg2 harg2 arg3 harg3 X G ⟨n, hlt⟩
    rw [e, View.writes_append,
      trip_read 𝒱 c bd i arg2 harg2 arg3 harg3 X ⟨n, hlt⟩ hk _ ch a b,
      loop_read 𝒱 c bd i arg2 harg2 arg3 harg3 X G ch a b n (by omega),
      Finset.sum_range_succ, add_assoc]
    congr 2
    unfold chunkHitsN
    rw [dif_pos hk]

end Cert.Hist.Body

end
-- ==== Proof.KernelBody.lean ====
/-
  What one grid point's body leaves in the accumulator block, read at one cell.

  The body runs 8 chunks of 1024 rows of its 8192-row input block; each chunk adds, to every cell
  (ch, a, b), the number of its rows of channel ch whose bin has halves (a, b).  At the first block of
  a shard the accumulator is zeroed first, so the body leaves the block's pair counts; at any other
  block it leaves the previous contents plus the block's pair counts.
-/
import proofs.«110198_j74637941669897_2_alg».proof.Proof.Gen.KernelIdeal.Frame
import proofs.«110198_j74637941669897_2_alg».proof.Proof.KernelPayload
import proofs.«110198_j74637941669897_2_alg».proof.Proof.KernelLoop

noncomputable section

open scoped BigOperators

namespace Cert.Hist.Body

open Idealize.ShloMosaic Idealize.ShloMosaic.ValueIdx Idealize.ShloMosaic.Tactic Cert.KernelIdeal Cert.KernelIdeal.Gen Cert.Hist

/-- At a block that is not the first of its shard the body's stores are those of the loop's 8 trips,
    over the previous contents. -/
theorem runB_pieces (c : Dev nD) (i : grid0.Coords)
    (arg2 : Memref sig .tc .vmem S1x8192x3 .f32) (harg2 : arg2.IsWhole)
    (arg3 : Memref sig .tc .vmem S1x3x16x16 .f32) (harg3 : arg3.IsWhole) (hc0 : ¬cond0_0 i)
    (x0 : Vec Ideal S1x8192x3 .f32) (xo1 : Vec Ideal S1x3x16x16 .f32) :
    (kernelRun0_B (F := Ideal) c i arg2 harg2 arg3 harg3 hc0 x0 xo1).1
      = pb_k0_t1 (F := Ideal) Variants.none c none i arg2 harg2 arg3 harg3 (harg2.unread x0) (harg3.unread xo1) 8 := by
  unfold kernelRun0_B
  dsimp only
  exact congrArg (pb_k0_t1 (F := Ideal) Variants.none c none i arg2 harg2 arg3 harg3 (harg2.unread x0) (harg3.unread xo1))
    trips_eq

/-- At the first block of a shard they are those of the loop's 8 trips over the zero block, after the
    store of the zero block. -/
theorem runA_pieces (c : Dev nD) (i : grid0.Coords)
    (arg2 : Memref sig .tc .vmem S1x8192x3 .f32) (harg2 : arg2.IsWhole)
    (arg3 : Memref sig .tc .vmem S1x3x16x16 .f32) (harg3 : arg3.IsWhole) (hc0 : cond0_0 i)
    (x0 : Vec Ideal S1x8192x3 .f32) :
    (kernelRun0_A (F := Ideal) c i arg2 harg2 arg3 harg3 hc0 x0).1
      = pb_k0_t1 (F := Ideal) Variants.none c none i arg2 harg2 arg3 harg3 (harg2.unread x0)
          (arg3.view.writes (Elt Ideal) arg3.view.junk
            [⟨Rect.unit (s := S1x3x16x16) ![0, 0, 0, 0] S1x3x16x16.size inb_S1x3x16x16_S1x3x16x16_0_0_0_0, k0_pay1 (F := Ideal)⟩]) 8
        ++ [⟨Rect.unit (s := S1x3x16x16) ![0, 0, 0, 0] S1x3x16x16.size inb_S1x3x16x16_S1x3x16x16_0_0_0_0, k0_pay1 (F := Ideal)⟩] := by
  unfold kernelRun0_A
  dsimp only
  sl_unfold_words
  exact congrArg (fun n => pb_k0_t1 (F := Ideal) Variants.none c none i arg2 harg2 arg3 harg3 (harg2.unread x0)
          (arg3.view.writes (Elt Ideal) arg3.view.junk
            [⟨Rect.unit (s := S1x3x16x16) ![0, 0, 0, 0] S1x3x16x16.size inb_S1x3x16x16_S1x3x16x16_0_0_0_0, k0_pay1 (F := Ideal)⟩]) n
        ++ [⟨Rect.unit (s := S1x3x16x16) ![0, 0, 0, 0] S1x3x16x16.size inb_S1x3x16x16_S1x3x16x16_0_0_0_0, k0_pay1 (F := Ideal)⟩])
    trips_eq

/-- The zero block, stored over anything, reads 0 at every cell. -/
theorem zero_read (arg3 : Memref sig .tc .vmem S1x3x16x16 .f32) (g : BufTy.Contents (Elt Ideal) arg3.view.ty)
    (ch : Fin 3) (a b : Fin 16) :
    arg3.view.read (Elt Ideal) (arg3.view.writes (Elt Ideal) g
        [⟨Rect.unit (s := S1x3x16x16) ![0, 0, 0, 0] S1x3x16x16.size inb_S1x3x16x16_S1x3x16x16_0_0_0_0, k0_pay1 (F := Ideal)⟩])
      (ix4 (0 : Fin 1) ch a b) = 0 := by
  refine (View.read_writes_cons_unit_of_mem arg3.view g inb_S1x3x16x16_S1x3x16x16_0_0_0_0 _ _
    (ix4 (0 : Fin 1) ch a b) (ix4 (0 : Fin 1) ch a b) rfl
    (fun a' => match a' with
      | ⟨0, _⟩ => (Nat.zero_add _).symm | ⟨1, _⟩ => (Nat.zero_add _).symm
      | ⟨2, _⟩ => (Nat.zero_add _).symm | ⟨3, _⟩ => (Nat.zero_add _).symm)).trans ?_
  exact Payload.pay1_apply _

/-- At the first block of a shard the body leaves the block's pair counts. -/
theorem out0_A_1_apply (c : Dev nD) (i : grid0.Coords)
    (arg2 : Memref sig .tc .vmem S1x8192x3 .f32) (harg2 : arg2.IsWhole)
    (arg3 : Memref sig .tc .vmem S1x3x16x16 .f32) (harg3 : arg3.IsWhole) (hc0 : cond0_0 i)
    (x0 : Vec Ideal S1x8192x3 .f32) (ch : Fin 3) (a b : Fin 16) :
    out0_A_1 (F := Ideal) c i arg2 harg2 arg3 harg3 hc0 x0 (ix4 (0 : Fin 1) ch a b) = blockHits x0 ch a b := by
  unfold out0_A_1
  rw [View.read_writes_of_cover VO0_1 VO0_1.junk arg3.view arg3.view.junk _ (cover0_A_1 c i arg2 harg2 arg3 harg3 hc0 x0),
    runA_pieces, View.writes_append,
    loop_read Variants.none c none i arg2 harg2 arg3 harg3 (harg2.unread x0) _ ch a b 8 (Nat.le_refl 8),
    zero_read, harg2.read_unread, zero_add, blockHits_eq_sum]

/-- At any other block the body leaves the previous contents plus the block's pair counts. -/
theorem out0_B_1_apply (c : Dev nD) (i : grid0.Coords)
    (arg2 : Memref sig .tc .vmem S1x8192x3 .f32) (harg2 : arg2.IsWhole)
    (arg3 : Memref sig .tc .vmem S1x3x16x16 .f32) (harg3 : arg3.IsWhole) (hc0 : ¬cond0_0 i)
    (x0 : Vec Ideal S1x8192x3 .f32) (xo1 : Vec Ideal S1x3x16x16 .f32) (ch : Fin 3) (a b : Fin 16) :
    out0_B_1 (F := Ideal) c i arg2 harg2 arg3 harg3 hc0 x0 xo1 (ix4 (0 : Fin 1) ch a b)
      = xo1 (ix4 (0 : Fin 1) ch a b) + blockHits x0 ch a b := by
  unfold out0_B_1
  rw [View.read_writes_of_cover VO0_1 VO0_1.junk arg3.view (harg3.unread xo1) _ (cover0_B_1 c i arg2 harg2 arg3 harg3 hc0 x0 xo1),
    runB_pieces,
    loop_read Variants.none c none i arg2 harg2 arg3 harg3 (harg2.unread x0) (harg3.unread xo1) ch a b 8 (Nat.le_refl 8),
    harg3.read_unread, harg2.read_unread, blockHits_eq_sum]

end Cert.Hist.Body

end
-- ==== Proof.KernelGrid.lean ====
/-
  The accumulator across the grid, and the array the kernel region leaves.

  The grid has 2 shards of 1024 blocks; point t = 1024 · s + i works on block i of shard s.  The
  accumulator block is zeroed at i = 0 and carried from point to point within a shard, so after
  point t it holds, at cell (ch, a, b), the pair counts of the blocks of its shard up to i, summed.
  It is written back once per shard, after i = 1023, into row s of the [2, 3, 16, 16] result: that
  row is the sum of the pair counts of the shard's 1024 blocks.
-/
import proofs.«110198_j74637941669897_2_alg».proof.Proof.Gen.KernelIdeal.Frame
import proofs.«110198_j74637941669897_2_alg».proof.Proof.KernelBody
import Idealize.ShloMosaic.Lib.Pipeline.Value
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Hist.Grid

open Cert.KernelIdeal Cert.KernelIdeal.Gen Cert.Hist

variable (m : (ℓ : Loc nD τ sig) → Buf (Elt Ideal) ℓ) (ρ : Dev nD → PrngReg)

/-- The pair count (ch, a, b) of the input block of grid point t (0 past the grid). -/
def blockAt (c : Dev nD) (ch : Fin 3) (a b : Fin 16) (t : ℕ) : EReal :=
  if h : t < cfg0.N then blockHits (iblk m c 0 ⟨t, h⟩ : Vec Ideal S1x8192x3 .f32) ch a b else 0

theorem blockAt_lt (c : Dev nD) (ch : Fin 3) (a b : Fin 16) (t : ℕ) (h : t < cfg0.N) :
    blockAt m c ch a b t = blockHits (iblk m c 0 ⟨t, h⟩ : Vec Ideal S1x8192x3 .f32) ch a b := dif_pos h

/-- After point n the accumulator holds the pair counts of its shard's blocks up to n, summed. -/
theorem outsAt_eq (c : Dev nD) (ch : Fin 3) (a b : Fin 16) : ∀ (n : ℕ) (h : n < cfg0.N),
    outsAt0 m c n h (ix4 (0 : Fin 1) ch a b)
      = ∑ i' ∈ Finset.range (n % 1024 + 1), blockAt m c ch a b (n / 1024 * 1024 + i')
  | 0, h => by
    rw [outsAt0_A m c ⟨0, h⟩ rfl, Body.out0_A_1_apply]
    simp only [Nat.zero_mod, Nat.zero_div, zero_mul, zero_add, Finset.sum_range_one]
    exact (blockAt_lt m c ch a b 0 h).symm
  | n + 1, h => by
    have hN : cfg0.N = 2048 := N_0
    by_cases h0 : (n + 1) % 1024 = 0
    · rw [outsAt0_A m c ⟨n + 1, h⟩ h0, Body.out0_A_1_apply]
      rw [h0, zero_add, Finset.sum_range_one, add_zero, Nat.div_mul_cancel (Nat.dvd_of_mod_eq_zero h0)]
      exact (blockAt_lt m c ch a b (n + 1) h).symm
    · rw [outsAt0_B m c ⟨n + 1, h⟩ h0, Body.out0_B_1_apply]
      have hn : n < cfg0.N := Nat.lt_of_succ_lt h
      have e1 : (n + 1) % 1024 = n % 1024 + 1 := by omega
      have e2 : (n + 1) / 1024 = n / 1024 := by omega
      have e3 : n / 1024 * 1024 + (n % 1024 + 1) = n + 1 := by omega
      show outsAt0 m c n _ (ix4 (0 : Fin 1) ch a b) + _ = _
      rw [outsAt_eq c ch a b n hn, e1, e2, Finset.sum_range_succ _ (n % 1024 + 1), e3,
        blockAt_lt m c ch a b (n + 1) h]

/-! ## The input blocks are rows of the input -/

/-- The printed index maps, decided once over the grid: point t works on block t % 1024 of shard
    t / 1024, and writes row t / 1024 of the result. -/
theorem idx_facts : ∀ t : Fin cfg0.N,
    win0_0.index t (0 : Fin 3) = t.val / 1024 ∧ win0_0.index t (1 : Fin 3) = t.val % 1024
    ∧ win0_0.index t (2 : Fin 3) = 0
    ∧ win0_1.index t (0 : Fin 4) = t.val / 1024 ∧ win0_1.index t (1 : Fin 4) = 0
    ∧ win0_1.index t (2 : Fin 4) = 0 ∧ win0_1.index t (3 : Fin 4) = 0 :=
  (by decide +kernel : ∀ t : Fin grid0.N, _)

/-- The region finds, in its operand, the input reshaped to [2, 8388608, 3]. -/
theorem V_main_v0 (c : Dev nD) :
    (V m c main_v0 : S2x8388608x3.Idx → EReal)
      = shapeCast S2x8388608x3 (m ((c.tc : Thread nD τ).loc main_arg0)) shapeCasts_S64x512x512x3_S2x8388608x3 := by
  show StableHlo.after hostOps0 (fun b => m (c, b)) (Proc.devRef .tc main_v0) = _
  after_results
  rfl

/-- Entry (s, r, ch) of the reshaped input is row 8388608 · s + r of the input. -/
theorem V_main_v0_apply (c : Dev nD) (s : Fin 2) (r : Fin 8388608) (ch : Fin 3) :
    (V m c main_v0 : S2x8388608x3.Idx → EReal) (ix3 s r ch)
      = rows (m ((c.tc : Thread nD τ).loc main_arg0))
          ⟨s.val * 8388608 + r.val, by have := s.isLt; have := r.isLt; omega⟩ ch := by
  rw [V_main_v0]
  unfold rows
  exact shapeCast_apply _ shapeCasts_S64x512x512x3_S2x8388608x3 (ix3 s r ch) (rowIdx _ ch)
    (by
      rewrite [Shape.rowMajor_val_four, Shape.rowMajor_val_three]
      have h0 := s.isLt; have h1 := r.isLt; have h2 := ch.isLt
      show ((((s.val * 8388608 + r.val) * 3 + ch.val) / 786432 * 512 + ((s.val * 8388608 + r.val) * 3 + ch.val) / 1536 % 512) * 512
          + ((s.val * 8388608 + r.val) * 3 + ch.val) / 3 % 512) * 3 + ((s.val * 8388608 + r.val) * 3 + ch.val) % 3
        = (s.val * 8388608 + r.val) * 3 + ch.val
      omega)

/-- Row ρ of the input block of point t is row 8388608 · (t / 1024) + 8192 · (t % 1024) + ρ of the input. -/
theorem iblk_apply (c : Dev nD) (t : Fin cfg0.N) (ρ : Fin 8192) (ch : Fin 3) :
    (iblk m c 0 t : Vec Ideal S1x8192x3 .f32) (ix3 (0 : Fin 1) ρ ch)
      = rows (m ((c.tc : Thread nD τ).loc main_arg0))
          ⟨t.val / 1024 * 8388608 + t.val % 1024 * 8192 + ρ.val, by
            have hN : cfg0.N = 2048 := N_0
            have := t.isLt; have := ρ.isLt; omega⟩ ch := by
  have hN : cfg0.N = 2048 := N_0
  have ht := t.isLt
  have hρ := ρ.isLt
  obtain ⟨e0, e1, e2, -⟩ := idx_facts t
  have key := V_main_v0_apply m c ⟨t.val / 1024, by omega⟩ ⟨t.val % 1024 * 8192 + ρ.val, by omega⟩ ch
  refine Eq.trans ?_ (key.trans ?_)
  · unfold iblk
    rw [View.read_apply]
    show V m c main_v0 _ = V m c main_v0 _
    congr 1
    funext a
    apply Fin.ext
    match a with
    | ⟨0, _⟩ => show win0_0.index t (0 : Fin 3) * 1 + 1 * 0 = t.val / 1024; omega
    | ⟨1, _⟩ => show win0_0.index t (1 : Fin 3) * 8192 + 1 * ρ.val = t.val % 1024 * 8192 + ρ.val; omega
    | ⟨2, _⟩ => show win0_0.index t (2 : Fin 3) * 3 + 1 * ch.val = ch.val; omega
  · exact congrArg (fun n => rows (m ((c.tc : Thread nD τ).loc main_arg0)) n ch) (Fin.ext (by
      show t.val / 1024 * 8388608 + (t.val % 1024 * 8192 + ρ.val) = t.val / 1024 * 8388608 + t.val % 1024 * 8192 + ρ.val
      omega))

/-! ## The array the region leaves -/

/-- Row s of the result: the pair counts of shard s's 1024 blocks, summed. -/
def shardSums (c : Dev nD) : S2x3x16x16.Idx → EReal :=
  fun j => ∑ i' ∈ Finset.range 1024, blockAt m c (j 1) (j 2) (j 3) ((j 0).val * 1024 + i')

/-- What the last point of a shard writes back is that shard's row of the sums. -/
theorem flushed_eq (c : Dev nD) (t : Fin cfg0.N) (hf : (cfg0.win 1).flush t = true) :
    (dats m 0 c).flushed 1 t = ((cfg0.win 1).blk t).view.read (Elt Ideal) (shardSums m c) := by
  have hN : cfg0.N = 2048 := N_0
  have ht := t.isLt
  have h3 : t.val % 1024 = 1023 := (flush0_1 t).mp hf
  obtain ⟨-, -, -, e0, e1, e2, e3⟩ := idx_facts t
  show (cfg0.win 1).cut (grid0.coords t) ((dats m 0 c).after 1 t) = _
  rw [after0_1]
  funext y
  rw [View.read_apply]
  revert y
  show ∀ y : S1x3x16x16.Idx, outsAt0 m c t.val t.isLt y = shardSums m c (((cfg0.win 1).blk t).view.emb y)
  intro y
  obtain ⟨z, ch, a, b, rfl⟩ : ∃ (z : Fin 1) (ch : Fin 3) (a b : Fin 16), y = ix4 z ch a b :=
    ⟨y 0, y 1, y 2, y 3, eq_ix4 y⟩
  obtain rfl : z = 0 := Subsingleton.elim _ _
  have hemb : (((cfg0.win 1).blk t).view.emb (ix4 (0 : Fin 1) ch a b : S1x3x16x16.Idx) : S2x3x16x16.Idx)
      = ix4 (⟨t.val / 1024, by omega⟩ : Fin 2) ch a b := by
    funext d
    apply Fin.ext
    match d with
    | ⟨0, _⟩ => show win0_1.index t (0 : Fin 4) * 1 + 1 * 0 = t.val / 1024; omega
    | ⟨1, _⟩ => show win0_1.index t (1 : Fin 4) * 3 + 1 * ch.val = ch.val; omega
    | ⟨2, _⟩ => show win0_1.index t (2 : Fin 4) * 16 + 1 * a.val = a.val; omega
    | ⟨3, _⟩ => show win0_1.index t (3 : Fin 4) * 16 + 1 * b.val = b.val; omega
  rw [hemb, outsAt_eq m c ch a b t.val t.isLt, h3]
  rfl

/-- An index of the result is in point t's block iff each coordinate is in the block's range. -/
theorem mem_blk (t : Fin cfg0.N) (i : S2x3x16x16.Idx) :
    i ∈ ((cfg0.win 1).blk t).view.set ↔ ∀ a : Fin 4, win0_1.index t a * S1x3x16x16.size a ≤ (i a).val
      ∧ (i a).val < win0_1.index t a * S1x3x16x16.size a + S1x3x16x16.size a := by
  show i ∈ ((View.whole main_v1).slice (win0_1.rect t)).set ↔ _
  rw [View.set_slice_whole, Rect.mem_set_unit]
  exact Iff.rfl

/-- So the region leaves the shards' sums in its result. -/
theorem final (c : Dev nD) : (dats m 0 c).arrAt 1 cfg0.N = shardSums m c :=
  (dats m 0 c).arrAt_eq_of_cover 1 (shardSums m c) (flushed_eq m c) fun i => by
    have hN : cfg0.N = 2048 := N_0
    have h0 : (i 0).val < 2 := (i 0).isLt
    have h1 : (i 1).val < 3 := (i 1).isLt
    have h2 : (i 2).val < 16 := (i 2).isLt
    have h3 : (i 3).val < 16 := (i 3).isLt
    let t : Fin cfg0.N := ⟨(i 0).val * 1024 + 1023, by omega⟩
    obtain ⟨-, -, -, e0, e1, e2, e3⟩ := idx_facts t
    have tv : t.val = (i 0).val * 1024 + 1023 := rfl
    refine ⟨t, (flush0_1 t).mpr (by rw [tv]; omega), ?_⟩
    rw [mem_blk]
    intro a
    match a with
    | ⟨0, _⟩ => show win0_1.index t (0 : Fin 4) * 1 ≤ (i 0).val ∧ (i 0).val < win0_1.index t (0 : Fin 4) * 1 + 1; omega
    | ⟨1, _⟩ => show win0_1.index t (1 : Fin 4) * 3 ≤ (i 1).val ∧ (i 1).val < win0_1.index t (1 : Fin 4) * 3 + 3; omega
    | ⟨2, _⟩ => show win0_1.index t (2 : Fin 4) * 16 ≤ (i 2).val ∧ (i 2).val < win0_1.index t (2 : Fin 4) * 16 + 16; omega
    | ⟨3, _⟩ => show win0_1.index t (3 : Fin 4) * 16 ≤ (i 3).val ∧ (i 3).val < win0_1.index t (3 : Fin 4) * 16 + 16; omega

end Cert.Hist.Grid

end
-- ==== Proof.KernelTail.lean ====
/-
  The host operations after the kernel region, as one function of the region's result.

  The [2, 3, 16, 16] result R is summed over its 2 shards, each channel's 16 × 16 cells are laid
  out as 256 bins (cell (a, b) is bin 16 · a + b) and transposed to [256, 3]: the histogram H.  Each
  channel's 256 bins are summed to its total, and the result is H / total where total > 0, else 0.
  When H holds the counts of the specification, every total is positive, so the result is the
  normalised histogram count / total.
-/
import proofs.«110198_j74637941669897_2_alg».proof.Proof.Gen.KernelIdeal.Frame
import proofs.«110198_j74637941669897_2_alg».proof.Proof.HistCount
import Idealize.ShloMosaic.Lib.Pipeline.Value
import Idealize.ShloMosaic.PureOps.Ideal.Laws
import Idealize.ShloMosaic.Lib.ValueIdx

noncomputable section

open scoped BigOperators
open Idealize.ShloMosaic Idealize.ShloMosaic.TcCoe Idealize.SL.Sem Idealize.ShloMosaic.ValueIdx

namespace Cert.Hist.Tail

open Cert.KernelIdeal Cert.KernelIdeal.Gen Cert.Hist

/-- The zero the host sums start from. -/
abbrev zeroS : FVec Ideal S_ .f32 := constant (F := Ideal) S_ .f32 0x00000000#32

/-- The histogram: the result summed over shards, cells laid out as bins, transposed to [256, 3]. -/
def hist (R : FVec Ideal S2x3x16x16 .f32) : FVec Ideal S256x3 .f32 :=
  transpose S256x3 [1, 0]
    (shapeCast S3x256 (Host.reduceAdd (F := Ideal) R zeroS reducesTo_S2x3x16x16_S3x16x16_d0 h_S_) shapeCasts_S3x16x16_S3x256)
    transposes_S3x256_S256x3_1_0

/-- Each channel's total, as a [1, 3] row. -/
def totals (H : FVec Ideal S256x3 .f32) : FVec Ideal S1x3 .f32 :=
  broadcastInDim S1x3 ![1] bcast_S3_S1x3_1 (Host.reduceAdd (F := Ideal) H zeroS reducesTo_S256x3_S3_d0 h_S_)

/-- The guarded quotient: H / total where total > 0, else 0. -/
def quotient (H : FVec Ideal S256x3 .f32) : FVec Ideal S256x3 .f32 :=
  select
    (broadcastInDim S256x3 ![0, 1] bcast_S1x3_S256x3_0_1
      (cmpf .ogt (totals H) (broadcastInDim S1x3 ![] bcast_S_S1x3 zeroS)))
    (Host.divf (F := Ideal) H (broadcastInDim S256x3 ![0, 1] bcast_S1x3_S256x3_0_1 (totals H)))
    (broadcastInDim S256x3 ![] bcast_S_S256x3 (id zeroS))

/-- The whole tail. -/
def tail (R : FVec Ideal S2x3x16x16 .f32) : FVec Ideal S256x3 .f32 := quotient (hist R)

/-- Bin 16 · a + b of channel ch is the sum over the shards of cell (ch, a, b). -/
theorem hist_apply (R : FVec Ideal S2x3x16x16 .f32) (ch : Fin 3) (a b : Fin 16) :
    hist R (ix2 (⟨16 * a.val + b.val, by have := a.isLt; have := b.isLt; omega⟩ : Fin 256) ch)
      = 0 + ∑ s : Fin 2, R (ix4 s ch a b) := by
  unfold hist
  rw [transpose_apply [1, 0] _ transposes_S3x256_S256x3_1_0 _
    (ix2 ch (⟨16 * a.val + b.val, by have := a.isLt; have := b.isLt; omega⟩ : Fin 256))
    (fun d => match d with | ⟨0, _⟩ => rfl | ⟨1, _⟩ => rfl)]
  rw [shapeCast_apply _ shapeCasts_S3x16x16_S3x256 _ (ix3 ch a b)
    (by rewrite [Shape.rowMajor_val_three, Shape.rowMajor_val_two]
        show (ch.val * 16 + a.val) * 16 + b.val = ch.val * 256 + (16 * a.val + b.val)
        omega)]
  simp only [Host.reduceAdd, Ideal.hostReduceAdd_def]
  rw [Ideal.hostReduceAdd_single reducesTo_S2x3x16x16_S3x16x16_d0 (by decide)]
  refine congrArg₂ (· + ·) ?_ (Finset.sum_congr rfl fun s _ => ?_)
  · exact Ideal.ofBits_zero_f32
  · exact congrArg R (funext fun d => Fin.ext (by
      match d with
      | ⟨0, _⟩ => rfl
      | ⟨1, _⟩ => rfl
      | ⟨2, _⟩ => rfl
      | ⟨3, _⟩ => rfl))

/-- A channel's total is the sum of its 256 bins. -/
theorem totals_apply (H : FVec Ideal S256x3 .f32) (z : Fin 1) (ch : Fin 3) :
    totals H (ix2 z ch) = 0 + ∑ k : Fin 256, H (ix2 k ch) := by
  unfold totals
  rw [broadcastInDim_apply _ bcast_S3_S1x3_1 _ (ix2 z ch) (ix1 ch) (fun d => match d with
    | ⟨0, _⟩ => by show ch.val = if (3 : Nat) = 1 then 0 else ch.val; rw [if_neg (by decide)])]
  simp only [Host.reduceAdd, Ideal.hostReduceAdd_def]
  rw [Ideal.hostReduceAdd_single reducesTo_S256x3_S3_d0 (by decide)]
  refine congrArg₂ (· + ·) ?_ (Finset.sum_congr rfl fun k _ => ?_)
  · exact Ideal.ofBits_zero_f32
  · exact congrArg H (funext fun d => Fin.ext (by
      match d with
      | ⟨0, _⟩ => rfl
      | ⟨1, _⟩ => rfl))

/-- When the histogram holds the specification's counts, the tail is the normalised histogram. -/
theorem quotient_eq (X : Fin 16777216 → Fin 3 → EReal) (H : FVec Ideal S256x3 .f32)
    (hH : ∀ (k : Fin 256) (ch : Fin 3), H (ix2 k ch) = count X k ch) :
    quotient H = G X := by
  funext i
  obtain ⟨k, ch, rfl⟩ : ∃ (k : Fin 256) (ch : Fin 3), i = ix2 k ch := ⟨i 0, i 1, eq_ix2 i⟩
  have htot : totals H (ix2 (0 : Fin 1) ch) = total X ch := by
    rw [totals_apply, zero_add]
    unfold total
    exact Finset.sum_congr rfl fun k _ => hH k ch
  have hpos : (0 : EReal) < totals H (ix2 (0 : Fin 1) ch) := by rw [htot]; exact total_pos X ch
  have hb : ∀ (f : FVec Ideal S1x3 .f32), broadcastInDim S256x3 ![0, 1] bcast_S1x3_S256x3_0_1 f (ix2 k ch) = f (ix2 (0 : Fin 1) ch) :=
    fun f => broadcastInDim_apply _ bcast_S1x3_S256x3_0_1 f (ix2 k ch) (ix2 (0 : Fin 1) ch) (fun d => match d with
      | ⟨0, _⟩ => by show 0 = if (1 : Nat) = 1 then 0 else k.val; rw [if_pos rfl]
      | ⟨1, _⟩ => by show ch.val = if (3 : Nat) = 1 then 0 else ch.val; rw [if_neg (by decide)])
  have hbi : ∀ (f : IVec S1x3 1), broadcastInDim S256x3 ![0, 1] bcast_S1x3_S256x3_0_1 f (ix2 k ch) = f (ix2 (0 : Fin 1) ch) :=
    fun f => broadcastInDim_apply _ bcast_S1x3_S256x3_0_1 f (ix2 k ch) (ix2 (0 : Fin 1) ch) (fun d => match d with
      | ⟨0, _⟩ => by show 0 = if (1 : Nat) = 1 then 0 else k.val; rw [if_pos rfl]
      | ⟨1, _⟩ => by show ch.val = if (3 : Nat) = 1 then 0 else ch.val; rw [if_neg (by decide)])
  have hz : broadcastInDim S1x3 ![] bcast_S_S1x3 zeroS (ix2 (0 : Fin 1) ch) = 0 := by
    rw [broadcastInDim_apply _ bcast_S_S1x3 zeroS (ix2 (0 : Fin 1) ch) ix0 (fun d => d.elim0)]
    exact Ideal.ofBits_zero_f32
  unfold quotient
  show Scalar.select (broadcastInDim S256x3 ![0, 1] bcast_S1x3_S256x3_0_1
      (cmpf .ogt (totals H) (broadcastInDim S1x3 ![] bcast_S_S1x3 zeroS)) (ix2 k ch))
    (Host.divf (F := Ideal) H (broadcastInDim S256x3 ![0, 1] bcast_S1x3_S256x3_0_1 (totals H)) (ix2 k ch))
    (broadcastInDim S256x3 ![] bcast_S_S256x3 (id zeroS) (ix2 k ch)) = _
  rw [hbi]
  have hc : cmpf .ogt (totals H) (broadcastInDim S1x3 ![] bcast_S_S1x3 zeroS) (ix2 (0 : Fin 1) ch) = 1#1 := by
    show FloatOps.cmpf (F := Ideal) .ogt (totals H (ix2 (0 : Fin 1) ch)) (broadcastInDim S1x3 ![] bcast_S_S1x3 zeroS (ix2 (0 : Fin 1) ch)) = 1#1
    rw [hz]
    show Ideal.cmp .ogt _ 0 = 1#1
    unfold Ideal.cmp
    simp only [hpos, decide_true]
    rfl
  rw [hc]
  show Host.divf (F := Ideal) H (broadcastInDim S256x3 ![0, 1] bcast_S1x3_S256x3_0_1 (totals H)) (ix2 k ch) = _
  show Ideal.div (H (ix2 k ch)) (broadcastInDim S256x3 ![0, 1] bcast_S1x3_S256x3_0_1 (totals H) (ix2 k ch)) = _
  rw [hb, htot, hH]
  rfl

end Cert.Hist.Tail

end
-- ==== Proof.KernelRun.lean ====
/-
  The idealized kernel's run, read: its result is the normalised histogram of the input's rows.

  The region leaves the shards' sums (one row per shard, each the sum of the pair counts of the
  shard's 1024 blocks); the host tail sums the two shards, so bin 16 · a + b of channel ch is the sum
  over all 2048 blocks of the rows with halves (a, b) — every row of the input exactly once —
  which is the count of that bin; the guarded quotient by the positive total is count / total.
-/
import proofs.«110198_j74637941669897_2_alg».proof.Proof.KernelGrid
import proofs.«110198_j74637941669897_2_alg».proof.Proof.KernelTail
import Idealize.ShloMosaic.Lib.StableHlo.Run

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.Hist.Run

open Cert.KernelIdeal Cert.KernelIdeal.Gen Cert.Hist Cert.Hist.Grid Cert.Hist.Tail

variable (m : (ℓ : Loc nD τ sig) → Buf (Elt Ideal) ℓ) (ρ : Dev nD → PrngReg)

/-- The input's rows, on core c. -/
abbrev X (c : Dev nD) : Fin 16777216 → Fin 3 → EReal := rows (m ((c.tc : Thread nD τ).loc main_arg0))

/-- The host tail's result is the tail function of the array the region leaves. -/
theorem tail_value (c : Dev nD) :
    Pipeline.afterTail₀ cfgs (dats m) 0 (V0 m) [hostOps1, hostOps1_1] c main_v11 = tail (shardSums m c) := by
  unfold Pipeline.afterTail₀
  simp only [hostOps1, hostOps1_1, List.flatten_cons, List.flatten_nil, List.append_nil, List.cons_append, List.nil_append]
  after_results
  rw [show Pipeline.withArrays (cfgs 0).spec c (V0 m c) (fun w => (dats m 0 c).arrAt w (cfgs 0).N) (Proc.tc.devRef main_v1)
      = shardSums m c from (Pipeline.withArrays_arr spec0 launch0.win.arr_inj c _ _ 1).trans (final m c)]
  rfl

/-- Bin 16 · a + b of the shards' sums, summed over the shards, is the count of that bin. -/
theorem hist_counts_ab (c : Dev nD) (ch : Fin 3) (a b : Fin 16) :
    hist (shardSums m c) (ix2 (⟨16 * a.val + b.val, by have := a.isLt; have := b.isLt; omega⟩ : Fin 256) ch)
      = count (X m c) ⟨16 * a.val + b.val, by have := a.isLt; have := b.isLt; omega⟩ ch := by
  have hN : cfg0.N = 2048 := N_0
  rw [hist_apply, zero_add]
  rw [← blocks_count (X m c)
    (fun s i => (iblk m c 0 ⟨s.val * 1024 + i.val, by have := s.isLt; have := i.isLt; omega⟩ : Vec Ideal S1x8192x3 .f32))
    (fun s i ρ ch' => by
      have hs := s.isLt
      have hi := i.isLt
      rw [iblk_apply]
      exact congrArg (fun n => rows (m ((c.tc : Thread nD τ).loc main_arg0)) n ch') (Fin.ext (by
        show (s.val * 1024 + i.val) / 1024 * 8388608 + (s.val * 1024 + i.val) % 1024 * 8192 + ρ.val
          = s.val * 8388608 + i.val * 8192 + ρ.val
        omega)))
    ch a b]
  refine Finset.sum_congr rfl fun s _ => ?_
  show (∑ i' ∈ Finset.range 1024, blockAt m c ch a b (s.val * 1024 + i')) = _
  rw [← Fin.sum_univ_eq_sum_range (fun i' => blockAt m c ch a b (s.val * 1024 + i')) 1024]
  exact Finset.sum_congr rfl fun i _ => blockAt_lt m c ch a b _ _

/-- The histogram of the shards' sums holds the specification's counts. -/
theorem hist_counts (c : Dev nD) (k : Fin 256) (ch : Fin 3) :
    hist (shardSums m c) (ix2 k ch) = count (X m c) k ch := by
  have hk := k.isLt
  have h := hist_counts_ab m c ch ⟨k.val / 16, by omega⟩ ⟨k.val % 16, Nat.mod_lt _ (by decide)⟩
  have e : (⟨16 * (k.val / 16) + k.val % 16, by omega⟩ : Fin 256) = k := Fin.ext (by show 16 * (k.val / 16) + k.val % 16 = k.val; omega)
  simpa only [e] using h

/-- The kernel's result is the normalised histogram of the input's rows. -/
theorem value (c : Dev nD) :
    Pipeline.afterTail₀ cfgs (dats m) 0 (V0 m) [hostOps1, hostOps1_1] c main_v11 = G (X m c) :=
  (tail_value m c).trans (quotient_eq (X m c) (hist (shardSums m c)) (hist_counts m c))

/-- The run, read: the result at the normalised histogram, the argument unchanged. -/
theorem run : θ_run defs (onTc (τ := τ) (main (F := Ideal))) ⟨m, fun _ => 0, ρ⟩ fun r => ∀ c : Dev nD,
      r.2.mem ((c.tc : Thread nD τ).loc main_v11) = G (X m c)
      ∧ r.2.mem ((c.tc : Thread nD τ).loc main_arg0) = m ((c.tc : Thread nD τ).loc main_arg0) :=
  (θ_run defs _ _).mono (fun _ h c =>
      ⟨((h c).2 main_v11 (Pipeline.mem_restRefs_of main_v11 (by decide) (by decide))).trans (value m c),
        ((h c).2 main_arg0 (Pipeline.mem_restRefs_of main_arg0 (by decide) (by decide))).trans (W_main_arg0 m (dats m) c)⟩)
    (run_main m ρ)

end Cert.Hist.Run

end
-- ==== Proof.LibScatterRows.lean ====
/-
  The accumulating scatter of rows, over the extended reals, read at one element.

  The operand is a [U, D] array, the scatter indices an [N, 1] column of 32-bit words and the updates an [N, D]
  array; the dimension numbers are update_window_dims = [1], inserted_window_dims = [0],
  scatter_dims_to_operand_dims = [0], index_vector_dim = 1.  Update row r is then added, column by column, to the
  operand row named by the r-th index, read signed; a row whose index is negative or at least U lands nowhere.  So
  element (u, q) of the result is the operand's element plus the sum, over the rows r whose index is u, of the
  updates' element (r, q).  All three extents are arbitrary.
-/
import Idealize.ShloMosaic.PureOps.Ideal
import Idealize.ShloMosaic.Lib.ValueIdx

noncomputable section

open scoped BigOperators

namespace Cert.LibScatterRows

open Idealize.ShloMosaic Idealize.ShloMosaic.ValueIdx

section
variable {U N D : ℕ}
  (wf : ScatterDims.WF (⟨2, ![U, D]⟩ : Shape) ⟨2, ![N, 1]⟩ ⟨2, ![N, D]⟩ [1] [0] [0] 1)

/-- The dimension numbers of a scatter of rows: the updates' axis 1 is the window axis, the operand's axis 0 is
    inserted and is the axis the one-component start index names; the index vector lies along axis 1 of the indices. -/
abbrev rowDims : ScatterDims (⟨2, ![U, D]⟩ : Shape) ⟨2, ![N, 1]⟩ ⟨2, ![N, D]⟩ := ⟨[1], [0], [0], 1, wf⟩

/-- Update element (r, c) reads its start index at entry (r, 0) of the index column. -/
theorem siIdx_rows (j : (⟨2, ![N, D]⟩ : Shape).Idx) (c : Fin (rowDims wf).scatterDimsToOperandDims.length) :
    (rowDims wf).siIdx j c = ix2 (j 0) (0 : Fin 1) := by
  funext b
  match b with
  | ⟨0, _⟩ =>
    apply Fin.ext
    rfl
  | ⟨1, _⟩ =>
    apply Fin.ext
    have hc : c.val < 1 := c.isLt
    show c.val = 0
    omega

/-- On the operand's axis 0 the window of update element (r, c) starts at the r-th index, read signed. -/
theorem start_rows0 (j : (⟨2, ![N, D]⟩ : Shape).Idx) (idx : IVec ⟨2, ![N, 1]⟩ 32) :
    (rowDims wf).start j idx (0 : Fin 2) = (idx (ix2 (j 0) (0 : Fin 1))).toInt := by
  unfold ScatterDims.start
  rw [dif_pos (show (0 : Fin 2) ∈ ([0] : List (Fin 2)) from by decide)]
  rw [siIdx_rows]
  rfl

/-- On the operand's axis 1, which the start index does not name, the window starts at 0. -/
theorem start_rows1 (j : (⟨2, ![N, D]⟩ : Shape).Idx) (idx : IVec ⟨2, ![N, 1]⟩ 32) :
    (rowDims wf).start j idx (1 : Fin 2) = 0 := by
  unfold ScatterDims.start
  rw [dif_neg (show (1 : Fin 2) ∉ ([0] : List (Fin 2)) from by decide)]

/-- The window coordinate on the inserted axis 0 is 0. -/
theorem window_rows0 (j : (⟨2, ![N, D]⟩ : Shape).Idx) :
    (rowDims wf).window j (0 : Fin 2) = 0 := by
  have h : (0 : Fin 2) ∉ (rowDims wf).sKept := by
    show (0 : Fin 2) ∉ (List.finRange 2).filter (· ∉ ([0] : List (Fin 2)))
    decide
  exact dif_neg h

/-- The window coordinate on axis 1 is the update element's column. -/
theorem window_rows1 (j : (⟨2, ![N, D]⟩ : Shape).Idx) :
    (rowDims wf).window j (1 : Fin 2) = (j 1).val := by
  have h : (1 : Fin 2) ∈ (rowDims wf).sKept := by
    show (1 : Fin 2) ∈ (List.finRange 2).filter (· ∉ ([0] : List (Fin 2)))
    decide
  exact (dif_pos h).trans rfl

/-- Update element j lands at operand element (u, q) exactly when the index of j's row, read signed, is u and
    j's column is q. -/
theorem resultIdx?_rows_iff (j : (⟨2, ![N, D]⟩ : Shape).Idx) (idx : IVec ⟨2, ![N, 1]⟩ 32) (u : Fin U) (q : Fin D) :
    (rowDims wf).resultIdx? j idx = some (ix2 u q)
      ↔ (idx (ix2 (j 0) (0 : Fin 1))).toInt = (u.val : ℤ) ∧ j 1 = q := by
  have h0 := start_rows0 wf j idx
  have h1 := start_rows1 wf j idx
  have w0 := window_rows0 wf j
  have w1 := window_rows1 wf j
  unfold ScatterDims.resultIdx?
  constructor
  · intro h
    split at h
    · rename_i hc
      have h' := Option.some.inj h
      have e0 := congrArg Fin.val (congrFun h' (0 : Fin 2))
      have e1 := congrArg Fin.val (congrFun h' (1 : Fin 2))
      have c0 := hc (0 : Fin 2)
      have e0' : ((rowDims wf).start j idx 0 + ((rowDims wf).window j 0 : ℤ)).toNat = u.val := e0
      have e1' : ((rowDims wf).start j idx 1 + ((rowDims wf).window j 1 : ℤ)).toNat = q.val := e1
      rw [h0, w0] at e0' c0
      rw [h1, w1] at e1'
      exact ⟨by omega, Fin.ext (by omega)⟩
    · exact absurd h (by simp)
  · rintro ⟨ht, hq⟩
    have hu := u.isLt
    have hq' := q.isLt
    have hc : ∀ a : Fin 2, 0 ≤ (rowDims wf).start j idx a + ((rowDims wf).window j a : ℤ) ∧
        (rowDims wf).start j idx a + ((rowDims wf).window j a : ℤ) < ((⟨2, ![U, D]⟩ : Shape).size a : ℤ) := by
      intro a
      match a with
      | ⟨0, _⟩ =>
        show 0 ≤ (rowDims wf).start j idx 0 + ((rowDims wf).window j 0 : ℤ) ∧
          (rowDims wf).start j idx 0 + ((rowDims wf).window j 0 : ℤ) < (U : ℤ)
        rw [h0, w0, ht]; omega
      | ⟨1, _⟩ =>
        show 0 ≤ (rowDims wf).start j idx 1 + ((rowDims wf).window j 1 : ℤ) ∧
          (rowDims wf).start j idx 1 + ((rowDims wf).window j 1 : ℤ) < (D : ℤ)
        rw [h1, w1, hq]; omega
    rw [dif_pos hc]
    congr 1
    funext a
    match a with
    | ⟨0, _⟩ =>
      apply Fin.ext
      show ((rowDims wf).start j idx 0 + ((rowDims wf).window j 0 : ℤ)).toNat = u.val
      rw [h0, w0, ht]; omega
    | ⟨1, _⟩ =>
      apply Fin.ext
      show ((rowDims wf).start j idx 1 + ((rowDims wf).window j 1 : ℤ)).toNat = q.val
      rw [h1, w1, hq]; omega

end

/-- The accumulating scatter of rows at element (u, q): the operand's element plus the sum, over the rows whose
    index read signed is u, of the updates' element in that row and column q. -/
theorem scatter_rows_apply {U N D : ℕ}
    (wf : ScatterDims.WF (⟨2, ![U, D]⟩ : Shape) ⟨2, ![N, 1]⟩ ⟨2, ![N, D]⟩ [1] [0] [0] 1)
    (x : (⟨2, ![U, D]⟩ : Shape).Idx → EReal) (idx : IVec ⟨2, ![N, 1]⟩ 32) (upd : (⟨2, ![N, D]⟩ : Shape).Idx → EReal)
    (u : Fin U) (q : Fin D) :
    Ideal.hostScatterAdd (⟨[1], [0], [0], 1, wf⟩ : ScatterDims (⟨2, ![U, D]⟩ : Shape) ⟨2, ![N, 1]⟩ ⟨2, ![N, D]⟩) x idx upd (ix2 u q)
      = x (ix2 u q) + ∑ r ∈ Finset.univ.filter (fun r : Fin N => (idx (ix2 r (0 : Fin 1))).toInt = (u.val : ℤ)), upd (ix2 r q) := by
  unfold Ideal.hostScatterAdd
  congr 1
  refine Finset.sum_nbij' (fun j => j 0) (fun r => ix2 r q) ?_ ?_ ?_ ?_ ?_
  · intro j hj
    have hj' := (Finset.mem_filter.1 hj).2
    exact Finset.mem_filter.2 ⟨Finset.mem_univ _, ((resultIdx?_rows_iff wf j idx u q).1 hj').1⟩
  · intro r hr
    have hr' := (Finset.mem_filter.1 hr).2
    exact Finset.mem_filter.2 ⟨Finset.mem_univ _, (resultIdx?_rows_iff wf (ix2 r q) idx u q).2 ⟨hr', rfl⟩⟩
  · intro j hj
    have hj' := (Finset.mem_filter.1 hj).2
    have hq := ((resultIdx?_rows_iff wf j idx u q).1 hj').2
    show ix2 (j 0) q = j
    rw [← hq]
    exact (eq_ix2 j).symm
  · intro r _
    rfl
  · intro j hj
    have hj' := (Finset.mem_filter.1 hj).2
    have hq := ((resultIdx?_rows_iff wf j idx u q).1 hj').2
    show upd j = upd (ix2 (j 0) q)
    rw [← hq]
    exact congrArg upd (eq_ix2 j)

/-- The same for the host's scatter with an add body at the ideal instance, whose accumulation is the exact sum. -/
theorem hostScatterAdd_rows_apply {U N D : ℕ}
    (wf : ScatterDims.WF (⟨2, ![U, D]⟩ : Shape) ⟨2, ![N, 1]⟩ ⟨2, ![N, D]⟩ [1] [0] [0] 1)
    (x : (⟨2, ![U, D]⟩ : Shape).Idx → EReal) (idx : IVec ⟨2, ![N, 1]⟩ 32) (upd : (⟨2, ![N, D]⟩ : Shape).Idx → EReal)
    (u : Fin U) (q : Fin D) :
    Host.scatterAdd (F := Ideal) (φ := .f32)
        (⟨[1], [0], [0], 1, wf⟩ : ScatterDims (⟨2, ![U, D]⟩ : Shape) ⟨2, ![N, 1]⟩ ⟨2, ![N, D]⟩) x idx upd (ix2 u q)
      = x (ix2 u q) + ∑ r ∈ Finset.univ.filter (fun r : Fin N => (idx (ix2 r (0 : Fin 1))).toInt = (u.val : ℤ)), upd (ix2 r q) :=
  scatter_rows_apply wf x idx upd u q

end Cert.LibScatterRows
-- ==== Proof.LibGatherRows.lean ====
/-
  A gather of rows, and a gather of entries of a vector, read at one element.

  The start indices are an [E, 1] column of words; entry e of the column names, read signed and clamped into
  [0, N - 1], the row (or the entry) the result takes at position e.  For an [N, D] operand with slices of one
  whole row the result is [E, D] and its element (e, q) is the operand's element in that row and column q; for an
  [N] operand with slices of one entry the result is [E].  All extents are arbitrary.
-/
import Idealize.ShloMosaic.PureOps.Ideal
import Idealize.ShloMosaic.Lib.ValueIdx

noncomputable section

namespace Cert.LibGatherRows

open Idealize.ShloMosaic Idealize.ShloMosaic.ValueIdx

section Rows

variable {α : Type} {N E D w : ℕ}
  (wf : GatherDims.WF (⟨2, ![N, D]⟩ : Shape) ⟨2, ![E, 1]⟩ ⟨2, ![E, D]⟩ [1] [0] [] [0] [] 1 ![1, D])

/-- The dimension numbers of a gather of whole rows: the result's axis 1 is the offset axis, the operand's axis 0
    is collapsed and is the axis the one-component start index names; the index vector lies along axis 1. -/
abbrev rowDims : GatherDims (⟨2, ![N, D]⟩ : Shape) ⟨2, ![E, 1]⟩ ⟨2, ![E, D]⟩ := ⟨[1], [0], [], [], [0], 1, ![1, D], wf⟩

/-- Result element (e, q) reads its start index at entry (e, 0) of the column. -/
theorem siIdx_rows (j : (⟨2, ![E, D]⟩ : Shape).Idx) (c : Fin (rowDims wf).startIndexMap.length) :
    (rowDims wf).siIdx j c = ix2 (j 0) (0 : Fin 1) := by
  funext b
  refine Fin.ext ?_
  match b with
  | ⟨0, _⟩ => rfl
  | ⟨1, _⟩ =>
    have hc : c.val < 1 := c.isLt
    show c.val = 0
    omega

/-- The gather of rows at (e, q): the operand at the clamped row named by entry e of the column, column q. -/
theorem gather_rows_apply (hN : 0 < N) (x : (⟨2, ![N, D]⟩ : Shape).Idx → α) (idx : IVec ⟨2, ![E, 1]⟩ w)
    (e : Fin E) (q : Fin D) :
    Host.gather (rowDims wf) x idx (ix2 e q)
      = x (ix2 ⟨min (idx (ix2 e (0 : Fin 1))).toInt.toNat (N - 1), by omega⟩ q) := by
  unfold Host.gather
  congr 1
  funext a
  refine Fin.ext ?_
  match a with
  | ⟨0, _⟩ =>
    show (rowDims wf).start (ix2 e q) idx 0 + (rowDims wf).batchCoord (ix2 e q) 0 + (rowDims wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    rw [siIdx_rows]
    rfl
  | ⟨1, _⟩ =>
    show (rowDims wf).start (ix2 e q) idx 1 + (rowDims wf).batchCoord (ix2 e q) 1 + (rowDims wf).offCoord (ix2 e q) 1 = _
    rw [GatherDims.batchCoord_eq_zero _ _ _ List.not_mem_nil]
    have hs : (rowDims wf).start (ix2 e q) idx 1 = 0 := by
      unfold GatherDims.start
      rw [dif_neg (show (1 : Fin 2) ∉ ([0] : List (Fin 2)) from by decide)]
    have ho : (rowDims wf).offCoord (ix2 e q) 1 = q.val := by
      unfold GatherDims.offCoord
      rw [dif_pos ((GatherDims.mem_sKept _ _).mpr ⟨show (1 : Fin 2) ∉ ([0] : List (Fin 2)) from by decide, List.not_mem_nil⟩)]
      rfl
    rw [hs, ho]
    show 0 + 0 + q.val = q.val
    omega

end Rows

section Vec

variable {α : Type} {N E w : ℕ}
  (wf : GatherDims.WF (⟨1, ![N]⟩ : Shape) ⟨2, ![E, 1]⟩ ⟨1, ![E]⟩ [] [0] [] [0] [] 1 ![1])

/-- The dimension numbers of a gather of single entries of a vector. -/
abbrev vecDims : GatherDims (⟨1, ![N]⟩ : Shape) ⟨2, ![E, 1]⟩ ⟨1, ![E]⟩ := ⟨[], [0], [], [], [0], 1, ![1], wf⟩

/-- Result element e reads its start index at entry (e, 0) of the column. -/
theorem siIdx_vec (j : (⟨1, ![E]⟩ : Shape).Idx) (c : Fin (vecDims wf).startIndexMap.length) :
    (vecDims wf).siIdx j c = ix2 (j 0) (0 : Fin 1) := by
  funext b
  refine Fin.ext ?_
  match b with
  | ⟨0, _⟩ => rfl
  | ⟨1, _⟩ =>
    have hc : c.val < 1 := c.isLt
    show c.val = 0
    omega

/-- The gather of entries at e: the operand at the clamped position named by entry e of the column. -/
theorem gather_vec_apply (hN : 0 < N) (x : (⟨1, ![N]⟩ : Shape).Idx → α) (idx : IVec ⟨2, ![E, 1]⟩ w) (e : Fin E) :
    Host.gather (vecDims wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims wf).start (ix1 e) idx 0 + (vecDims wf).batchCoord (ix1 e) 0 + (vecDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  rw [siIdx_vec]
  rfl

end Vec

end Cert.LibGatherRows

end
-- ==== Proof.LibArangeIndex.lean ====
/-
  Indexing through the arange 0, 1, …, n - 1, over the extended reals.

  When every target row of a graph is the endpoint of exactly one edge, the targets are the arange itself, and the
  three operations that go through it are trivial:
    • the arange, as 32-bit words read signed, is the identity on positions (for n up to 2^31), also after the
      negative-index normalisation "add n to the negative entries" (there are none) and after being laid out as an
      [n, 1] column;
    • an accumulating scatter of rows, or of single entries, through identity targets adds update r to operand r and
      to nothing else, so onto zeros it returns the updates;
    • a gather of rows through identity indices returns the operand;
    • the degree of such a graph — ones scattered through identity targets onto zeros — is one everywhere, its floor
      at one is one and the reciprocal square root of that is one, so scaling by it changes nothing.
  The scatter of single entries into a vector is first read at one entry for arbitrary indices: the operand's entry
  plus the sum of the updates whose index, read signed, is that entry (an index that is negative or too large lands
  nowhere).  All extents are arbitrary.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«110198_j74637941669897_2_alg».proof.Proof.LibScatterRows
import proofs.«110198_j74637941669897_2_alg».proof.Proof.LibGatherRows

noncomputable section

open scoped BigOperators

namespace Cert.LibArangeIndex

open Idealize.ShloMosaic Idealize.ShloMosaic.ValueIdx

/-! ## The arange column -/

/-- A natural number below 2^31, written as a 32-bit word and read back signed, is itself. -/
theorem toInt_ofNat_of_lt (k : ℕ) (hk : k < 2 ^ 31) : (BitVec.ofNat 32 k).toInt = (k : ℤ) := by
  rw [BitVec.toInt_eq_toNat_cond, BitVec.toNat_ofNat]
  have h32 : (2 : ℕ) ^ 32 = 4294967296 := by norm_num
  have h31 : (2 : ℕ) ^ 31 = 2147483648 := by norm_num
  rw [h31] at hk
  rw [h32]
  have hm : k % 4294967296 = k := Nat.mod_eq_of_lt (by omega)
  rw [hm]
  split
  · rfl
  · omega

/-- Entry e of the arange 0, 1, …, n - 1 of 32-bit words, read signed, is e (for n up to 2^31). -/
theorem arange_toInt {n : ℕ} (hn : n ≤ 2 ^ 31) (e : Fin n) :
    (iotaInDim (⟨1, ![n]⟩ : Shape) 32 0 (ix1 e)).toInt = (e.val : ℤ) := by
  rw [iotaInDim_apply]
  exact toInt_ofNat_of_lt e.val (lt_of_lt_of_le e.isLt hn)

/-- The negative-index normalisation "if a < 0 then b else a" of a column of words, at an entry where a is not
    negative (z being zero there): it is a itself. -/
theorem normalize_apply {s : Shape} (a b z : IVec s 32) (i : s.Idx) (hz : z i = 0#32) (ha : 0 ≤ (a i).toInt) :
    select (cmpi .slt a z) b a i = a i := by
  rw [select_apply]
  have hc : cmpi .slt a z i = 0#1 := by
    show BitVec.ofBool ((a i).slt (z i)) = 0#1
    rw [hz]
    have : (a i).slt 0#32 = false := by
      rw [BitVec.slt]
      simp only [BitVec.toInt_zero]
      exact decide_eq_false (not_lt.mpr ha)
    rw [this]
    rfl
  rw [hc, select_zero]

/-- The arange after the normalisation "add n to the negative entries", as the reference spells it with the
    constants broadcast from scalars: no entry is negative, so entry e is still the arange's. -/
theorem arange_normalized_apply {n : ℕ} (hn : n ≤ 2 ^ 31) (c : BitVec 32)
    (h0 h1 : (⟨0, ![]⟩ : Shape).BroadcastsInDim (⟨1, ![n]⟩ : Shape) ![]) (e : Fin n) :
    select (cmpi .slt (iotaInDim (⟨1, ![n]⟩ : Shape) 32 0)
        (broadcastInDim (⟨1, ![n]⟩ : Shape) ![] h0 (constantI (⟨0, ![]⟩ : Shape) 32 0#32)))
      (addi (iotaInDim (⟨1, ![n]⟩ : Shape) 32 0)
        (broadcastInDim (⟨1, ![n]⟩ : Shape) ![] h1 (constantI (⟨0, ![]⟩ : Shape) 32 c)))
      (iotaInDim (⟨1, ![n]⟩ : Shape) 32 0) (ix1 e)
      = iotaInDim (⟨1, ![n]⟩ : Shape) 32 0 (ix1 e) := by
  refine normalize_apply _ _ _ (ix1 e) rfl ?_
  rw [arange_toInt hn e]
  exact Int.natCast_nonneg _

/-- The normalised arange, entry e read signed, is e. -/
theorem arange_normalized_toInt {n : ℕ} (hn : n ≤ 2 ^ 31) (c : BitVec 32)
    (h0 h1 : (⟨0, ![]⟩ : Shape).BroadcastsInDim (⟨1, ![n]⟩ : Shape) ![]) (e : Fin n) :
    (select (cmpi .slt (iotaInDim (⟨1, ![n]⟩ : Shape) 32 0)
        (broadcastInDim (⟨1, ![n]⟩ : Shape) ![] h0 (constantI (⟨0, ![]⟩ : Shape) 32 0#32)))
      (addi (iotaInDim (⟨1, ![n]⟩ : Shape) 32 0)
        (broadcastInDim (⟨1, ![n]⟩ : Shape) ![] h1 (constantI (⟨0, ![]⟩ : Shape) 32 c)))
      (iotaInDim (⟨1, ![n]⟩ : Shape) 32 0) (ix1 e)).toInt = (e.val : ℤ) := by
  rw [arange_normalized_apply hn c h0 h1 e, arange_toInt hn e]

/-- A vector laid out as an [n, 1] column: entry (e, 0) of the column is entry e of the vector. -/
theorem column_apply {α : Type} {n : ℕ} (v : (⟨1, ![n]⟩ : Shape).Idx → α)
    (h : (⟨1, ![n]⟩ : Shape).BroadcastsInDim (⟨2, ![n, 1]⟩ : Shape) ![0]) (e : Fin n) (u : Fin 1) :
    broadcastInDim (⟨2, ![n, 1]⟩ : Shape) ![0] h v (ix2 e u) = v (ix1 e) :=
  broadcastInDim_apply ![0] h v (ix2 e u) (ix1 e) fun ax => by
    match ax with
    | ⟨0, _⟩ =>
      show e.val = if n = 1 then 0 else e.val
      split
      · have := e.isLt; omega
      · rfl

/-- The arange as an [n, 1] index column: entry (e, 0), read signed, is e. -/
theorem arange_column_toInt {n : ℕ} (hn : n ≤ 2 ^ 31)
    (h : (⟨1, ![n]⟩ : Shape).BroadcastsInDim (⟨2, ![n, 1]⟩ : Shape) ![0]) (e : Fin n) :
    (broadcastInDim (⟨2, ![n, 1]⟩ : Shape) ![0] h (iotaInDim (⟨1, ![n]⟩ : Shape) 32 0) (ix2 e (0 : Fin 1))).toInt
      = (e.val : ℤ) := by
  rw [column_apply, arange_toInt hn e]

/-- The normalised arange as an [n, 1] index column: entry (e, 0), read signed, is e. -/
theorem arange_normalized_column_toInt {n : ℕ} (hn : n ≤ 2 ^ 31) (c : BitVec 32)
    (h0 h1 : (⟨0, ![]⟩ : Shape).BroadcastsInDim (⟨1, ![n]⟩ : Shape) ![])
    (h : (⟨1, ![n]⟩ : Shape).BroadcastsInDim (⟨2, ![n, 1]⟩ : Shape) ![0]) (e : Fin n) :
    (broadcastInDim (⟨2, ![n, 1]⟩ : Shape) ![0] h
      (select (cmpi .slt (iotaInDim (⟨1, ![n]⟩ : Shape) 32 0)
          (broadcastInDim (⟨1, ![n]⟩ : Shape) ![] h0 (constantI (⟨0, ![]⟩ : Shape) 32 0#32)))
        (addi (iotaInDim (⟨1, ![n]⟩ : Shape) 32 0)
          (broadcastInDim (⟨1, ![n]⟩ : Shape) ![] h1 (constantI (⟨0, ![]⟩ : Shape) 32 c)))
        (iotaInDim (⟨1, ![n]⟩ : Shape) 32 0)) (ix2 e (0 : Fin 1))).toInt = (e.val : ℤ) := by
  rw [column_apply, arange_normalized_toInt hn c h0 h1 e]

/-! ## The accumulating scatter of entries into a vector -/

section Vec
variable {U N : ℕ}
  (wf : ScatterDims.WF (⟨1, ![U]⟩ : Shape) ⟨2, ![N, 1]⟩ ⟨1, ![N]⟩ [] [0] [0] 1)

/-- The dimension numbers of a scatter of single entries into a vector: the updates have no window axis, the
    operand's one axis is inserted and is the axis the one-component start index names; the index vector lies along
    axis 1 of the indices. -/
abbrev vecDims : ScatterDims (⟨1, ![U]⟩ : Shape) ⟨2, ![N, 1]⟩ ⟨1, ![N]⟩ := ⟨[], [0], [0], 1, wf⟩

/-- Update entry r reads its start index at entry (r, 0) of the index column. -/
theorem siIdx_vec (j : (⟨1, ![N]⟩ : Shape).Idx) (c : Fin (vecDims wf).scatterDimsToOperandDims.length) :
    (vecDims wf).siIdx j c = ix2 (j 0) (0 : Fin 1) := by
  funext b
  match b with
  | ⟨0, _⟩ =>
    apply Fin.ext
    rfl
  | ⟨1, _⟩ =>
    apply Fin.ext
    have hc : c.val < 1 := c.isLt
    show c.val = 0
    omega

/-- On the operand's one axis the window of update entry r starts at the r-th index, read signed. -/
theorem start_vec0 (j : (⟨1, ![N]⟩ : Shape).Idx) (idx : IVec ⟨2, ![N, 1]⟩ 32) :
    (vecDims wf).start j idx (0 : Fin 1) = (idx (ix2 (j 0) (0 : Fin 1))).toInt := by
  unfold ScatterDims.start
  rw [dif_pos (show (0 : Fin 1) ∈ ([0] : List (Fin 1)) from by decide)]
  rw [siIdx_vec]
  rfl

/-- The window coordinate on the inserted axis is 0. -/
theorem window_vec0 (j : (⟨1, ![N]⟩ : Shape).Idx) :
    (vecDims wf).window j (0 : Fin 1) = 0 := by
  have h : (0 : Fin 1) ∉ (vecDims wf).sKept := by
    show (0 : Fin 1) ∉ (List.finRange 1).filter (· ∉ ([0] : List (Fin 1)))
    decide
  exact dif_neg h

/-- Update entry j lands at operand entry u exactly when the index of j, read signed, is u. -/
theorem resultIdx?_vec_iff (j : (⟨1, ![N]⟩ : Shape).Idx) (idx : IVec ⟨2, ![N, 1]⟩ 32) (u : Fin U) :
    (vecDims wf).resultIdx? j idx = some (ix1 u)
      ↔ (idx (ix2 (j 0) (0 : Fin 1))).toInt = (u.val : ℤ) := by
  have h0 := start_vec0 wf j idx
  have w0 := window_vec0 wf j
  unfold ScatterDims.resultIdx?
  constructor
  · intro h
    split at h
    · rename_i hc
      have h' := Option.some.inj h
      have e0 := congrArg Fin.val (congrFun h' (0 : Fin 1))
      have c0 := hc (0 : Fin 1)
      have e0' : ((vecDims wf).start j idx 0 + ((vecDims wf).window j 0 : ℤ)).toNat = u.val := e0
      rw [h0, w0] at e0' c0
      omega
    · exact absurd h (by simp)
  · intro ht
    have hu := u.isLt
    have hc : ∀ a : Fin 1, 0 ≤ (vecDims wf).start j idx a + ((vecDims wf).window j a : ℤ) ∧
        (vecDims wf).start j idx a + ((vecDims wf).window j a : ℤ) < ((⟨1, ![U]⟩ : Shape).size a : ℤ) := by
      intro a
      match a with
      | ⟨0, _⟩ =>
        show 0 ≤ (vecDims wf).start j idx 0 + ((vecDims wf).window j 0 : ℤ) ∧
          (vecDims wf).start j idx 0 + ((vecDims wf).window j 0 : ℤ) < (U : ℤ)
        rw [h0, w0, ht]; omega
    rw [dif_pos hc]
    congr 1
    funext a
    match a with
    | ⟨0, _⟩ =>
      apply Fin.ext
      show ((vecDims wf).start j idx 0 + ((vecDims wf).window j 0 : ℤ)).toNat = u.val
      rw [h0, w0, ht]; omega

end Vec

/-- The accumulating scatter of entries at entry u: the operand's entry plus the sum, over the update entries whose
    index read signed is u, of those updates. -/
theorem scatter_vec_apply {U N : ℕ}
    (wf : ScatterDims.WF (⟨1, ![U]⟩ : Shape) ⟨2, ![N, 1]⟩ ⟨1, ![N]⟩ [] [0] [0] 1)
    (x : (⟨1, ![U]⟩ : Shape).Idx → EReal) (idx : IVec ⟨2, ![N, 1]⟩ 32) (upd : (⟨1, ![N]⟩ : Shape).Idx → EReal)
    (u : Fin U) :
    Ideal.hostScatterAdd (⟨[], [0], [0], 1, wf⟩ : ScatterDims (⟨1, ![U]⟩ : Shape) ⟨2, ![N, 1]⟩ ⟨1, ![N]⟩) x idx upd (ix1 u)
      = x (ix1 u) + ∑ r ∈ Finset.univ.filter (fun r : Fin N => (idx (ix2 r (0 : Fin 1))).toInt = (u.val : ℤ)), upd (ix1 r) := by
  unfold Ideal.hostScatterAdd
  congr 1
  refine Finset.sum_nbij' (fun j => j 0) (fun r => ix1 r) ?_ ?_ ?_ ?_ ?_
  · intro j hj
    have hj' := (Finset.mem_filter.1 hj).2
    exact Finset.mem_filter.2 ⟨Finset.mem_univ _, (resultIdx?_vec_iff wf j idx u).1 hj'⟩
  · intro r hr
    have hr' := (Finset.mem_filter.1 hr).2
    exact Finset.mem_filter.2 ⟨Finset.mem_univ _, (resultIdx?_vec_iff wf (ix1 r) idx u).2 hr'⟩
  · intro j _
    exact (eq_ix1 j).symm
  · intro r _
    rfl
  · intro j _
    exact congrArg upd (eq_ix1 j)

/-- The same for the host's scatter with an add body at the ideal instance, whose accumulation is the exact sum. -/
theorem hostScatterAdd_vec_apply {U N : ℕ}
    (wf : ScatterDims.WF (⟨1, ![U]⟩ : Shape) ⟨2, ![N, 1]⟩ ⟨1, ![N]⟩ [] [0] [0] 1)
    (x : (⟨1, ![U]⟩ : Shape).Idx → EReal) (idx : IVec ⟨2, ![N, 1]⟩ 32) (upd : (⟨1, ![N]⟩ : Shape).Idx → EReal)
    (u : Fin U) :
    Host.scatterAdd (F := Ideal) (φ := .f32)
        (⟨[], [0], [0], 1, wf⟩ : ScatterDims (⟨1, ![U]⟩ : Shape) ⟨2, ![N, 1]⟩ ⟨1, ![N]⟩) x idx upd (ix1 u)
      = x (ix1 u) + ∑ r ∈ Finset.univ.filter (fun r : Fin N => (idx (ix2 r (0 : Fin 1))).toInt = (u.val : ℤ)), upd (ix1 r) :=
  scatter_vec_apply wf x idx upd u

/-- A sum over the positions r of 0, …, n - 1 whose key is u, when the key of every position is the position
    itself: the single term at u. -/
theorem sum_filter_identity {n : ℕ} (key : Fin n → ℤ) (hkey : ∀ r : Fin n, key r = (r.val : ℤ)) (f : Fin n → EReal)
    (u : Fin n) : ∑ r ∈ Finset.univ.filter (fun r : Fin n => key r = (u.val : ℤ)), f r = f u := by
  have hmem : u ∈ Finset.univ.filter (fun r : Fin n => key r = (u.val : ℤ)) :=
    Finset.mem_filter.2 ⟨Finset.mem_univ _, hkey u⟩
  refine Finset.sum_eq_single_of_mem u hmem ?_
  intro b hb hne
  have hb' := (Finset.mem_filter.1 hb).2
  rw [hkey b] at hb'
  exact absurd (Fin.ext (by omega)) hne

/-- The accumulating scatter of entries through identity targets (entry r of the index column reads r): entry u of
    the result is the operand's entry plus the update's entry. -/
theorem hostScatterAdd_vec_identity {n : ℕ}
    (wf : ScatterDims.WF (⟨1, ![n]⟩ : Shape) ⟨2, ![n, 1]⟩ ⟨1, ![n]⟩ [] [0] [0] 1)
    (x : (⟨1, ![n]⟩ : Shape).Idx → EReal) (idx : IVec ⟨2, ![n, 1]⟩ 32) (upd : (⟨1, ![n]⟩ : Shape).Idx → EReal)
    (hidx : ∀ r : Fin n, (idx (ix2 r (0 : Fin 1))).toInt = (r.val : ℤ)) (u : Fin n) :
    Host.scatterAdd (F := Ideal) (φ := .f32)
        (⟨[], [0], [0], 1, wf⟩ : ScatterDims (⟨1, ![n]⟩ : Shape) ⟨2, ![n, 1]⟩ ⟨1, ![n]⟩) x idx upd (ix1 u)
      = x (ix1 u) + upd (ix1 u) := by
  rw [hostScatterAdd_vec_apply wf x idx upd u,
    sum_filter_identity (fun r => (idx (ix2 r (0 : Fin 1))).toInt) hidx (fun r => upd (ix1 r)) u]

/-! ## Rows scattered and gathered through identity indices -/

/-- The accumulating scatter of rows through identity targets (entry r of the index column reads r): element (u, q)
    of the result is the operand's element plus the updates' element. -/
theorem hostScatterAdd_rows_identity {n D : ℕ}
    (wf : ScatterDims.WF (⟨2, ![n, D]⟩ : Shape) ⟨2, ![n, 1]⟩ ⟨2, ![n, D]⟩ [1] [0] [0] 1)
    (x : (⟨2, ![n, D]⟩ : Shape).Idx → EReal) (idx : IVec ⟨2, ![n, 1]⟩ 32) (upd : (⟨2, ![n, D]⟩ : Shape).Idx → EReal)
    (hidx : ∀ r : Fin n, (idx (ix2 r (0 : Fin 1))).toInt = (r.val : ℤ)) (u : Fin n) (q : Fin D) :
    Host.scatterAdd (F := Ideal) (φ := .f32)
        (⟨[1], [0], [0], 1, wf⟩ : ScatterDims (⟨2, ![n, D]⟩ : Shape) ⟨2, ![n, 1]⟩ ⟨2, ![n, D]⟩) x idx upd (ix2 u q)
      = x (ix2 u q) + upd (ix2 u q) := by
  rw [Cert.LibScatterRows.hostScatterAdd_rows_apply wf x idx upd u q,
    sum_filter_identity (fun r => (idx (ix2 r (0 : Fin 1))).toInt) hidx (fun r => upd (ix2 r q)) u]

/-- The same onto an operand that reads the float word of zero everywhere: the result is the updates. -/
theorem hostScatterAdd_rows_identity_zero {n D : ℕ}
    (wf : ScatterDims.WF (⟨2, ![n, D]⟩ : Shape) ⟨2, ![n, 1]⟩ ⟨2, ![n, D]⟩ [1] [0] [0] 1)
    (x : (⟨2, ![n, D]⟩ : Shape).Idx → EReal) (idx : IVec ⟨2, ![n, 1]⟩ 32) (upd : (⟨2, ![n, D]⟩ : Shape).Idx → EReal)
    (hx : ∀ i, x i = Ideal.ofBits .f32 0x00000000#32)
    (hidx : ∀ r : Fin n, (idx (ix2 r (0 : Fin 1))).toInt = (r.val : ℤ)) (u : Fin n) (q : Fin D) :
    Host.scatterAdd (F := Ideal) (φ := .f32)
        (⟨[1], [0], [0], 1, wf⟩ : ScatterDims (⟨2, ![n, D]⟩ : Shape) ⟨2, ![n, 1]⟩ ⟨2, ![n, D]⟩) x idx upd (ix2 u q)
      = upd (ix2 u q) := by
  rw [hostScatterAdd_rows_identity wf x idx upd hidx u q, hx, Ideal.ofBits_zero_f32, zero_add]

/-- The same with the operand spelled as the scalar zero constant broadcast to the array. -/
theorem hostScatterAdd_rows_identity_const {n D : ℕ}
    (wf : ScatterDims.WF (⟨2, ![n, D]⟩ : Shape) ⟨2, ![n, 1]⟩ ⟨2, ![n, D]⟩ [1] [0] [0] 1)
    (h0 : (⟨0, ![]⟩ : Shape).BroadcastsInDim (⟨2, ![n, D]⟩ : Shape) ![])
    (idx : IVec ⟨2, ![n, 1]⟩ 32) (upd : (⟨2, ![n, D]⟩ : Shape).Idx → EReal)
    (hidx : ∀ r : Fin n, (idx (ix2 r (0 : Fin 1))).toInt = (r.val : ℤ)) (u : Fin n) (q : Fin D) :
    Host.scatterAdd (F := Ideal) (φ := .f32)
        (⟨[1], [0], [0], 1, wf⟩ : ScatterDims (⟨2, ![n, D]⟩ : Shape) ⟨2, ![n, 1]⟩ ⟨2, ![n, D]⟩)
        (broadcastInDim (⟨2, ![n, D]⟩ : Shape) ![] h0 (constant (F := Ideal) (⟨0, ![]⟩ : Shape) .f32 0x00000000#32))
        idx upd (ix2 u q)
      = upd (ix2 u q) :=
  hostScatterAdd_rows_identity_zero wf _ idx upd (fun _ => rfl) hidx u q

/-- The gather of rows through identity indices (entry e of the index column reads e): element (e, q) of the result
    is the operand's element (e, q). -/
theorem gather_rows_identity {α : Type} {n D w : ℕ}
    (wf : GatherDims.WF (⟨2, ![n, D]⟩ : Shape) ⟨2, ![n, 1]⟩ ⟨2, ![n, D]⟩ [1] [0] [] [0] [] 1 ![1, D])
    (x : (⟨2, ![n, D]⟩ : Shape).Idx → α) (idx : IVec ⟨2, ![n, 1]⟩ w)
    (hidx : ∀ r : Fin n, (idx (ix2 r (0 : Fin 1))).toInt = (r.val : ℤ)) (e : Fin n) (q : Fin D) :
    Host.gather (⟨[1], [0], [], [], [0], 1, ![1, D], wf⟩ : GatherDims (⟨2, ![n, D]⟩ : Shape) ⟨2, ![n, 1]⟩ ⟨2, ![n, D]⟩)
        x idx (ix2 e q)
      = x (ix2 e q) := by
  have hN : 0 < n := lt_of_le_of_lt (Nat.zero_le _) e.isLt
  rw [Cert.LibGatherRows.gather_rows_apply wf hN x idx e q]
  congr 2
  apply Fin.ext
  show min (idx (ix2 e (0 : Fin 1))).toInt.toNat (n - 1) = e.val
  rw [hidx e]
  have := e.isLt
  omega

/-! ## The degree column of a graph whose every target row is hit once -/

/-- The reciprocal square root of one is one. -/
theorem rsqrt_one : Ideal.rsqrt (1 : EReal) = 1 := by
  rw [← EReal.coe_one, Ideal.rsqrt_coe]
  rw [if_neg (by norm_num), if_neg (by norm_num), Real.sqrt_one, inv_one]

/-- Zero plus one, floored at one, is one (on the float words of zero and of one). -/
theorem max_zero_add_one :
    max (Ideal.ofBits .f32 0x00000000#32 + Ideal.ofBits .f32 0x3F800000#32) (Ideal.ofBits .f32 0x3F800000#32)
      = (1 : EReal) := by
  rw [Ideal.ofBits_zero_f32, Ideal.ofBits_one_f32, zero_add, max_self]

/-- The inverse square root of a degree floored at one, when the degree is a count started at zero that met a single
    one: it is one. -/
theorem rsqrt_max_zero_add_one :
    Ideal.rsqrt (max (Ideal.ofBits .f32 0x00000000#32 + Ideal.ofBits .f32 0x3F800000#32)
      (Ideal.ofBits .f32 0x3F800000#32)) = (1 : EReal) := by
  rw [max_zero_add_one, rsqrt_one]

/-- The inverse-square-root degree of a graph whose targets are the identity: the count of ones scattered through
    identity targets onto zeros is one at every entry, its floor at one is one, and the reciprocal square root of
    that is one. The operand, the updates and the floor are any vectors that read the float words of zero, one and
    one at every entry. -/
theorem degree_rsqrt_apply {n : ℕ}
    (wf : ScatterDims.WF (⟨1, ![n]⟩ : Shape) ⟨2, ![n, 1]⟩ ⟨1, ![n]⟩ [] [0] [0] 1)
    (x upd fl : FVec Ideal (⟨1, ![n]⟩ : Shape) .f32) (idx : IVec ⟨2, ![n, 1]⟩ 32)
    (hx : ∀ i, x i = Ideal.ofBits .f32 0x00000000#32) (hupd : ∀ i, upd i = Ideal.ofBits .f32 0x3F800000#32)
    (hfl : ∀ i, fl i = Ideal.ofBits .f32 0x3F800000#32)
    (hidx : ∀ r : Fin n, (idx (ix2 r (0 : Fin 1))).toInt = (r.val : ℤ)) (u : Fin n) :
    Host.rsqrt (maximumf (Host.scatterAdd (F := Ideal) (φ := .f32)
        (⟨[], [0], [0], 1, wf⟩ : ScatterDims (⟨1, ![n]⟩ : Shape) ⟨2, ![n, 1]⟩ ⟨1, ![n]⟩) x idx upd) fl) (ix1 u)
      = (1 : EReal) := by
  show Ideal.rsqrt (max (Host.scatterAdd (F := Ideal) (φ := .f32)
        (⟨[], [0], [0], 1, wf⟩ : ScatterDims (⟨1, ![n]⟩ : Shape) ⟨2, ![n, 1]⟩ ⟨1, ![n]⟩) x idx upd (ix1 u)) (fl (ix1 u))) = 1
  rw [hostScatterAdd_vec_identity wf x idx upd hidx u, hx, hupd, hfl, rsqrt_max_zero_add_one]

/-- The same with the operand, the updates and the floor spelled as scalar constants broadcast to the vector. -/
theorem degree_rsqrt_const_apply {n : ℕ}
    (wf : ScatterDims.WF (⟨1, ![n]⟩ : Shape) ⟨2, ![n, 1]⟩ ⟨1, ![n]⟩ [] [0] [0] 1)
    (h0 h1 h2 : (⟨0, ![]⟩ : Shape).BroadcastsInDim (⟨1, ![n]⟩ : Shape) ![]) (idx : IVec ⟨2, ![n, 1]⟩ 32)
    (hidx : ∀ r : Fin n, (idx (ix2 r (0 : Fin 1))).toInt = (r.val : ℤ)) (u : Fin n) :
    Host.rsqrt (maximumf (Host.scatterAdd (F := Ideal) (φ := .f32)
        (⟨[], [0], [0], 1, wf⟩ : ScatterDims (⟨1, ![n]⟩ : Shape) ⟨2, ![n, 1]⟩ ⟨1, ![n]⟩)
        (broadcastInDim (⟨1, ![n]⟩ : Shape) ![] h0 (constant (F := Ideal) (⟨0, ![]⟩ : Shape) .f32 0x00000000#32)) idx
        (broadcastInDim (⟨1, ![n]⟩ : Shape) ![] h1 (constant (F := Ideal) (⟨0, ![]⟩ : Shape) .f32 0x3F800000#32)))
      (broadcastInDim (⟨1, ![n]⟩ : Shape) ![] h2 (constant (F := Ideal) (⟨0, ![]⟩ : Shape) .f32 0x3F800000#32))) (ix1 u)
      = (1 : EReal) :=
  degree_rsqrt_apply wf _ _ _ idx (fun _ => rfl) (fun _ => rfl) (fun _ => rfl) hidx u

/-- Scaling by a degree factor that is one changes nothing. -/
theorem mul_degree_one (x d : EReal) (hd : d = 1) : x * d = x := by rw [hd, mul_one]

/-- Scaling by a degree factor that is one, on the left, changes nothing. -/
theorem degree_one_mul (x d : EReal) (hd : d = 1) : d * x = x := by rw [hd, one_mul]

/-- The inverse-square-root degree at any index of the vector. -/
theorem degree_rsqrt_apply_idx {n : ℕ}
    (wf : ScatterDims.WF (⟨1, ![n]⟩ : Shape) ⟨2, ![n, 1]⟩ ⟨1, ![n]⟩ [] [0] [0] 1)
    (x upd fl : FVec Ideal (⟨1, ![n]⟩ : Shape) .f32) (idx : IVec ⟨2, ![n, 1]⟩ 32)
    (hx : ∀ i, x i = Ideal.ofBits .f32 0x00000000#32) (hupd : ∀ i, upd i = Ideal.ofBits .f32 0x3F800000#32)
    (hfl : ∀ i, fl i = Ideal.ofBits .f32 0x3F800000#32)
    (hidx : ∀ r : Fin n, (idx (ix2 r (0 : Fin 1))).toInt = (r.val : ℤ)) (i : (⟨1, ![n]⟩ : Shape).Idx) :
    Host.rsqrt (maximumf (Host.scatterAdd (F := Ideal) (φ := .f32)
        (⟨[], [0], [0], 1, wf⟩ : ScatterDims (⟨1, ![n]⟩ : Shape) ⟨2, ![n, 1]⟩ ⟨1, ![n]⟩) x idx upd) fl) i
      = (1 : EReal) := by
  rw [eq_ix1 i]
  exact degree_rsqrt_apply wf x upd fl idx hx hupd hfl hidx (i 0)

end Cert.LibArangeIndex
-- ==== Proof.RefValue.lean ====
/-
  The reference program's result is the normalised histogram.

  The reference reads the input as 16777216 rows of 3 channels, sends every entry to its bin word,
  adds 256 times the channel to it, and adds 1 at that position of a vector of 768 zeros, once for
  each of the 50331648 entries.  Position 256 * ch + b of that vector therefore holds the number of
  rows of channel ch whose entry lands in bin b.  Read as a [256, 3] table and divided, column by
  column, by the column's sum, it is the normalised histogram.
-/
import proofs.«110198_j74637941669897_2_alg».proof.Proof.Gen.ReferenceIdeal.Read
import proofs.«110198_j74637941669897_2_alg».proof.Proof.HistSpec
import proofs.«110198_j74637941669897_2_alg».proof.Proof.HistCount
import proofs.«110198_j74637941669897_2_alg».proof.Proof.LibArangeIndex
import Idealize.ShloMosaic.Lib.ValueIdx
import Idealize.ShloMosaic.Lib.Pipeline.Value
import Idealize.ShloMosaic.PureOps.Ideal.Laws

noncomputable section

open scoped BigOperators

namespace Cert.Hist.Ref

open Cert.ReferenceIdeal Cert.ReferenceIdeal.Gen Cert.ReferenceIdeal.Read Idealize.ShloMosaic Idealize.ShloMosaic.ValueIdx

/-- The input array, as the reference's argument is typed. -/
abbrev Input : Type := (⟨Cert.ReferenceIdeal.S64x512x512x3, .f32⟩ : BufTy).Contents (Elt Ideal)

/-! ## Index equations -/

/-- Entry (n, ch) of the reshaped input is the input at the row-major position 3 * n + ch. -/
theorem idx_v0 (n : Fin 16777216) (ch : Fin 3) : idx_main_v0 (ix2 n ch) = Cert.Hist.rowIdx n ch := by
  funext a
  match a with
  | ⟨0, _⟩ => rfl
  | ⟨1, _⟩ => rfl
  | ⟨2, _⟩ => rfl
  | ⟨3, _⟩ => rfl

/-- Flat position j is entry (j / 3, j % 3). -/
theorem idx_v12 (j : Fin 50331648) :
    idx_main_v12 (ix1 j)
      = ix2 (⟨j.val / 3, by have := j.isLt; omega⟩ : Fin 16777216) (⟨j.val % 3, Nat.mod_lt _ (by decide)⟩ : Fin 3) := by
  funext a
  match a with
  | ⟨0, _⟩ => rfl
  | ⟨1, _⟩ => rfl

/-- Entry (r, 0) of the index column is entry r of the flat vector. -/
theorem idx_v19 (r : Fin 50331648) (u : Fin 1) : idx_main_v19 (ix2 r u) = ix1 r := by
  funext a
  match a with
  | ⟨0, _⟩ => rfl

/-- Entry (ch, b) of the [3, 256] table is position 256 * ch + b of the vector. -/
theorem idx_v22 (ch : Fin 3) (b : Fin 256) :
    idx_main_v22 (ix2 ch b) = ix1 (⟨ch.val * 256 + b.val, by have := ch.isLt; have := b.isLt; omega⟩ : Fin 768) := by
  funext a
  match a with
  | ⟨0, _⟩ => rfl

/-- Entry (b, ch) of the transposed table is entry (ch, b). -/
theorem idx_v23 (b : Fin 256) (ch : Fin 3) : idx_main_v23 (ix2 b ch) = ix2 ch b := by
  funext a
  match a with
  | ⟨0, _⟩ => rfl
  | ⟨1, _⟩ => rfl

/-- The k-th summand of the column sum of channel ch is entry (k, ch). -/
theorem idx_v24 (ch : Fin 3) (k : Fin 256) : idx_main_v24 (ix1 ch) k = ix2 k ch := by
  funext a
  match a with
  | ⟨0, _⟩ => rfl
  | ⟨1, _⟩ => rfl

/-- The column sum of channel ch, laid out over the table: entry (b, ch) reads the sum of channel ch. -/
theorem idx_v25_v26 (b : Fin 256) (ch : Fin 3) : idx_main_v25 (idx_main_v26 (ix2 b ch)) = ix1 ch := by
  funext a
  match a with
  | ⟨0, _⟩ => rfl

/-! ## The bin word of an entry -/

/-- The clamped word of entry (n, ch) is the bin word of that entry of the input read as rows. -/
theorem v5_apply (x0 : Input) (n : Fin 16777216) (ch : Fin 3) :
    val_main_v5 (F := Ideal) x0 (ix2 n ch) = Cert.Hist.binWord (Cert.Hist.rows x0 n ch) := by
  rw [val_main_v5_apply, val_main_call0_v4_apply, val_main_call0_v3_apply, val_main_c_0_apply,
    val_main_call0_v2_apply, val_main_call0_v1_apply, val_main_call0_v0_apply, val_main_c_apply,
    val_main_v4_apply, val_main_v3_apply, val_main_v2_apply, val_main_v0_apply, val_main_v1_apply,
    val_main_cst_apply, idx_v0]
  rfl

/-- The channel offset at entry (n, ch): the word of ch times the word 256. -/
theorem v10_apply (n : Fin 16777216) (ch : Fin 3) :
    val_main_v10 (F := Ideal) (ix2 n ch) = IntOp.muli (BitVec.ofNat 32 ch.val) 256#32 := by
  rw [val_main_v10_apply, val_main_v9_apply, val_main_v7_apply, val_main_v8_apply, val_main_c_1_apply,
    val_main_v6_apply]

/-! ## The index word -/

/-- The j-th index word before the wrap of negative indices: the bin word of entry (j / 3, j % 3)
    plus the channel offset. -/
theorem v12_apply (x0 : Input) (j : Fin 50331648) :
    val_main_v12 (F := Ideal) x0 (ix1 j)
      = IntOp.addi
          (Cert.Hist.binWord (Cert.Hist.rows x0 (⟨j.val / 3, by have := j.isLt; omega⟩ : Fin 16777216)
            (⟨j.val % 3, Nat.mod_lt _ (by decide)⟩ : Fin 3)))
          (IntOp.muli (BitVec.ofNat 32 (j.val % 3)) 256#32) := by
  rw [val_main_v12_apply, idx_v12, val_main_v11_apply, v5_apply, v10_apply]

/-- A word below 256 plus 256 times a channel number, in 32-bit arithmetic, read signed: nothing
    overflows, so it is the sum of natural numbers. -/
theorem word_toInt (w : BitVec 32) (c : ℕ) (hw : w.toNat < 256) (hc : c < 3) :
    (IntOp.addi w (IntOp.muli (BitVec.ofNat 32 c) 256#32)).toInt = ((256 * c + w.toNat : ℕ) : ℤ) := by
  have h32 : (2 : ℕ) ^ 32 = 4294967296 := by norm_num
  have hn : (IntOp.addi w (IntOp.muli (BitVec.ofNat 32 c) 256#32)).toNat = 256 * c + w.toNat := by
    show (w + BitVec.ofNat 32 c * 256#32).toNat = 256 * c + w.toNat
    rw [BitVec.toNat_add, BitVec.toNat_mul, BitVec.toNat_ofNat, BitVec.toNat_ofNat, h32]
    omega
  rw [BitVec.toInt_eq_toNat_cond, hn, h32]
  split
  · rfl
  · omega

/-- The j-th index word read signed: 256 times the channel plus the bin of the entry. -/
theorem v12_toInt (x0 : Input) (j : Fin 50331648) :
    (val_main_v12 (F := Ideal) x0 (ix1 j)).toInt
      = ((256 * (j.val % 3) + Cert.Hist.bin (Cert.Hist.rows x0 (⟨j.val / 3, by have := j.isLt; omega⟩ : Fin 16777216)
            (⟨j.val % 3, Nat.mod_lt _ (by decide)⟩ : Fin 3)) : ℕ) : ℤ) := by
  rw [v12_apply]
  exact word_toInt _ _ (Cert.Hist.bin_lt _) (Nat.mod_lt _ (by decide))

/-- The wrap of negative indices changes nothing: no index word is negative. -/
theorem v18_apply (x0 : Input) (j : Fin 50331648) :
    val_main_v18 (F := Ideal) x0 (ix1 j) = val_main_v12 (F := Ideal) x0 (ix1 j) := by
  unfold val_main_v18 val_main_v15
  refine Cert.LibArangeIndex.normalize_apply _ _ _ (ix1 j) ?_ ?_
  · rw [val_main_v14_apply, val_main_c_3_apply]
  · rw [v12_toInt]
    exact Int.natCast_nonneg _

/-- Entry (r, 0) of the index column is the r-th index word. -/
theorem v19_apply (x0 : Input) (r : Fin 50331648) :
    val_main_v19 (F := Ideal) x0 (ix2 r (0 : Fin 1)) = val_main_v12 (F := Ideal) x0 (ix1 r) := by
  rw [val_main_v19_apply, idx_v19, v18_apply]

/-! ## The counts -/

/-- The float word of 1.0 denotes 1. -/
theorem ofBits_one : Ideal.ofBits .f32 0x3F800000#32 = 1 := by
  simp [Ideal.ofBits, Ideal.ieee, -EReal.coe_mul]; norm_num

/-- Position 256 * ch + b of the scattered vector holds the count of bin b of channel ch: the vector starts
    at zero and receives 1 from every flat position whose index word, read signed, is that position. -/
theorem v21_apply (x0 : Input) (b : Fin 256) (ch : Fin 3) :
    val_main_v21 (F := Ideal) x0
        (ix1 (⟨ch.val * 256 + b.val, by have := ch.isLt; have := b.isLt; omega⟩ : Fin 768))
      = Cert.Hist.count (Cert.Hist.rows x0) b ch := by
  unfold val_main_v21
  show Host.scatterAdd (F := Ideal) (φ := .f32)
      (⟨[], [0], [0], 1, Facts₀.scatter_S768_S50331648x1_S50331648_n_0_0_1_wf⟩ :
        ScatterDims (⟨1, ![768]⟩ : Shape) ⟨2, ![50331648, 1]⟩ ⟨1, ![50331648]⟩)
      (val_main_v13 (F := Ideal)) (val_main_v19 (F := Ideal) x0) (val_main_v20 (F := Ideal))
      (ix1 (⟨ch.val * 256 + b.val, by have := ch.isLt; have := b.isLt; omega⟩ : Fin 768)) = _
  rw [Cert.LibArangeIndex.hostScatterAdd_vec_apply, val_main_v13_apply, val_main_cst_2_apply,
    Ideal.ofBits_def, Ideal.ofBits_zero_f32, zero_add]
  refine Eq.trans ?_ (Cert.Hist.scatter_count (Cert.Hist.rows x0)
    (fun j => (val_main_v12 (F := Ideal) x0 (ix1 j)).toInt) (fun j => v12_toInt x0 j) b ch)
  refine Finset.sum_congr (Finset.filter_congr fun r _ => ?_) fun r _ => ?_
  · rw [v19_apply]
    show _ = ((ch.val * 256 + b.val : ℕ) : ℤ) ↔ _
    rw [Nat.mul_comm ch.val 256]
  · rw [val_main_v20_apply, val_main_cst_5_apply, Ideal.ofBits_def, ofBits_one]

/-! ## The table, its column sums and the quotient -/

/-- Entry (b, ch) of the [256, 3] table is the count of bin b of channel ch. -/
theorem v23_apply (x0 : Input) (b : Fin 256) (ch : Fin 3) :
    val_main_v23 (F := Ideal) x0 (ix2 b ch) = Cert.Hist.count (Cert.Hist.rows x0) b ch := by
  rw [val_main_v23_apply, idx_v23, val_main_v22_apply, idx_v22, v21_apply]

/-- The column sum of channel ch is the channel's total. -/
theorem v24_apply (x0 : Input) (ch : Fin 3) :
    val_main_v24 (F := Ideal) x0 (ix1 ch) = Cert.Hist.total (Cert.Hist.rows x0) ch := by
  rw [val_main_v24_apply, val_main_cst_6_apply, Ideal.ofBits_def, Ideal.ofBits_zero_f32, zero_add]
  unfold Cert.Hist.total
  refine Finset.sum_congr rfl fun k _ => ?_
  rw [idx_v24, v23_apply]

/-- The reference's result is the normalised histogram of the input read as rows. -/
theorem ref_eq (x0 : (⟨Cert.ReferenceIdeal.S64x512x512x3, .f32⟩ : BufTy).Contents (Elt Ideal)) :
    Cert.ReferenceIdeal.Read.val_main_v27 (F := Ideal) x0 = Cert.Hist.G (Cert.Hist.rows x0) := by
  funext i
  obtain ⟨b, ch, rfl⟩ : ∃ (b : Fin 256) (ch : Fin 3), i = ix2 b ch := ⟨i 0, i 1, eq_ix2 i⟩
  rw [val_main_v27_apply, val_main_v26_apply, val_main_v25_apply, idx_v25_v26, v23_apply, v24_apply]
  rfl

end Cert.Hist.Ref

end
-- ==== Proof.lean ====
/-
  A per-channel 256-bin histogram of a [64, 512, 512, 3] array, normalised by the channel's total,
  computed two ways that agree over the extended reals.

  Both programs send an entry x to the bin min(255, max(0, floor(256 · x))) (the same operations in
  the same order).  The reference adds 1 at position 256 · channel + bin of a 768-long zero vector,
  one addition per entry, and divides each channel's 256 counts by their sum.  The kernel splits a
  bin into its two 4-bit halves (a, b) = (bin / 16, bin % 16), turns 1024 rows at a time into two
  16-wide one-hot matrices and multiplies them contracting the rows, so that cell (a, b) of the
  product counts the rows with those halves; it adds these products up over the 8 chunks of a
  block, the 1024 blocks of a shard and the 2 shards, reads cell (a, b) as bin 16 · a + b, and
  divides by the channel's total where that total is positive.  Since bin = 16 · a + b exactly
  when (bin / 16, bin % 16) = (a, b), and the chunks, blocks and shards go through every row once,
  both count the same rows; and a channel's total is positive (row 0 lands in some bin), so the
  kernel's guard never fires.  No finiteness of the input is used: the two sides are the same
  function of every extended real.

  Each of the three programs terminates without a fault and leaves its argument array unchanged,
  and the idealized kernel is the kernel's own text read over the extended reals: no operation
  was rewritten.
-/
import proofs.«110198_j74637941669897_2_alg».proof.Defs
import proofs.«110198_j74637941669897_2_alg».proof.Proof.Gen.Kernel
import proofs.«110198_j74637941669897_2_alg».proof.Proof.Gen.Kernel.Skeleton
import proofs.«110198_j74637941669897_2_alg».proof.Proof.Gen.Kernel.Loops
import proofs.«110198_j74637941669897_2_alg».proof.Proof.Gen.Kernel.Launch
import proofs.«110198_j74637941669897_2_alg».proof.Proof.Gen.Kernel.Points
import proofs.«110198_j74637941669897_2_alg».proof.Proof.Gen.Kernel.Frame
import proofs.«110198_j74637941669897_2_alg».proof.Proof.Gen.KernelIdeal
import proofs.«110198_j74637941669897_2_alg».proof.Proof.Gen.KernelIdeal.Skeleton
import proofs.«110198_j74637941669897_2_alg».proof.Proof.Gen.KernelIdeal.Loops
import proofs.«110198_j74637941669897_2_alg».proof.Proof.Gen.KernelIdeal.Launch
import proofs.«110198_j74637941669897_2_alg».proof.Proof.Gen.KernelIdeal.Points
import proofs.«110198_j74637941669897_2_alg».proof.Proof.Gen.KernelIdeal.Frame
import proofs.«110198_j74637941669897_2_alg».proof.Proof.Gen.ReferenceIdeal
import proofs.«110198_j74637941669897_2_alg».proof.Proof.Gen.ReferenceIdeal.Run
import proofs.«110198_j74637941669897_2_alg».proof.Proof.Gen.ReferenceIdeal.Read
import proofs.«110198_j74637941669897_2_alg».proof.Proof.Gen.Pre_finite_inputs
import proofs.«110198_j74637941669897_2_alg».proof.Proof.KernelRun
import proofs.«110198_j74637941669897_2_alg».proof.Proof.RefValue
import Idealize.ShloMosaic.Adequacy
import Idealize.ShloMosaic.Init

noncomputable section

namespace Cert.Proof

open Idealize.ShloMosaic Idealize.SL.Sem

/-- The word-level kernel runs and leaves its argument unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its argument unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end at the normalised histogram of the rows of arguments that agree. -/
theorem algebraic : Cert.algebraic_KernelIdeal_ReferenceIdeal := by
  intro m ρ m' ρ' _ hagree
  refine ⟨fun c => Cert.Hist.G (Cert.Hist.Run.X m c), Cert.Hist.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.Hist.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
